-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S1x16 : Shape := ⟨2, ![1, 16]⟩
abbrev S100000x40 : Shape := ⟨2, ![100000, 40]⟩
abbrev S2000x40 : Shape := ⟨2, ![2000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 97
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3300000, .i32⟩
  | .hbm, ⟨22, _⟩ => ⟨S3300000, .i1⟩
  | .hbm, ⟨23, _⟩ => ⟨S_, .i32⟩
  | .hbm, ⟨24, _⟩ => ⟨S3300000, .i32⟩
  | .hbm, ⟨25, _⟩ => ⟨S3300000, .i32⟩
  | .hbm, ⟨26, _⟩ => ⟨S3300000, .i32⟩
  | .hbm, ⟨27, _⟩ => ⟨S3300000x1, .i32⟩
  | .hbm, ⟨28, _⟩ => ⟨S3300000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S100000x16, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x16, .f32⟩
  | .hbm, ⟨49, _⟩ => ⟨S3300000x1, .f32⟩
  | .hbm, ⟨50, _⟩ => ⟨S3300000x16, .f32⟩
  | .hbm, ⟨51, _⟩ => ⟨S3300000x16, .f32⟩
  | .hbm, ⟨52, _⟩ => ⟨S_, .f32⟩
  | .hbm, ⟨53, _⟩ => ⟨S100000x16, .f32⟩
  | .hbm, ⟨54, _⟩ => ⟨S3300000x1, .i32⟩
  | .hbm, ⟨55, _⟩ => ⟨S100000x16, .f32⟩
  | .hbm, ⟨56, _⟩ => ⟨S1x16, .f32⟩
  | .hbm, ⟨57, _⟩ => ⟨S100000x16, .f32⟩
  | .hbm, ⟨58, _⟩ => ⟨S100000x16, .f32⟩
  | .hbm, ⟨59, _⟩ => ⟨S_, .f32⟩
  | .hbm, ⟨60, _⟩ => ⟨S100000x16, .f32⟩
  | .hbm, ⟨61, _⟩ => ⟨S100000x16, .f32⟩
  | .hbm, ⟨62, _⟩ => ⟨S100000x40, .f32⟩
  | .hbm, ⟨63, _⟩ => ⟨S_, .i32⟩
  | .hbm, ⟨64, _⟩ => ⟨S3300000, .i32⟩
  | .hbm, ⟨65, _⟩ => ⟨S3300000, .i1⟩
  | .hbm, ⟨66, _⟩ => ⟨S_, .i32⟩
  | .hbm, ⟨67, _⟩ => ⟨S3300000, .i32⟩
  | .hbm, ⟨68, _⟩ => ⟨S3300000, .i32⟩
  | .hbm, ⟨69, _⟩ => ⟨S3300000, .i32⟩
  | .hbm, ⟨70, _⟩ => ⟨S3300000x1, .i32⟩
  | .hbm, ⟨71, _⟩ => ⟨S3300000x40, .f32⟩
  | .hbm, ⟨72, _⟩ => ⟨S3300000x1, .f32⟩
  | .hbm, ⟨73, _⟩ => ⟨S3300000x40, .f32⟩
  | .hbm, ⟨74, _⟩ => ⟨S3300000x40, .f32⟩
  | .hbm, ⟨75, _⟩ => ⟨S_, .f32⟩
  | .hbm, ⟨76, _⟩ => ⟨S100000x40, .f32⟩
  | .hbm, ⟨77, _⟩ => ⟨S3300000x1, .i32⟩
  | .hbm, ⟨78, _⟩ => ⟨S100000x40, .f32⟩
  | .hbm, ⟨79, _⟩ => ⟨S1x40, .f32⟩
  | .hbm, ⟨80, _⟩ => ⟨S100000x40, .f32⟩
  | .hbm, ⟨81, _⟩ => ⟨S100000x40, .f32⟩
  | .hbm, ⟨82, _⟩ => ⟨S_, .f32⟩
  | .hbm, ⟨83, _⟩ => ⟨S100000, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S100000x1, .f32⟩
  | .hbm, ⟨88, _⟩ => ⟨S100000x40, .f32⟩
  | .hbm, ⟨89, _⟩ => ⟨S100000x40, .f32⟩
  | .hbm, ⟨90, _⟩ => ⟨S100000x40, .f32⟩
  | .hbm, ⟨91, _⟩ => ⟨S_, .f32⟩
  | .hbm, ⟨92, _⟩ => ⟨S100000, .f32⟩
  | .hbm, ⟨93, _⟩ => ⟨S100000x1, .f32⟩
  | .hbm, ⟨94, _⟩ => ⟨S100000x1, .f32⟩
  | .hbm, ⟨95, _⟩ => ⟨S100000x40, .f32⟩
  | .hbm, ⟨96, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S16x40, .f32⟩
  | .local _ .vmem, ⟨8, _⟩ => ⟨S2000x40, .f32⟩
  | .local _ .vmem, ⟨9, _⟩ => ⟨S2000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_call1_cst : Ref sig .tc := ⟨.hbm, 82, rfl⟩
abbrev main_call1_v0 : Ref sig .tc := ⟨.hbm, 83, rfl⟩
abbrev main_call1_cst_0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_cst_1 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_v62 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S2000x16_S2000x16 : S2000x16.ShapeCasts S2000x16
  inb_S16x40_S16x40_0_0 : ∀ a, (![0, 0] : Fin 2 → Nat) a + S16x40.size a ≤ S16x40.size a
  h_S16x40 : 0 < S16x40.numel
  inb_S2000x40_S2000x40_0_0 : ∀ a, (![0, 0] : Fin 2 → Nat) a + S2000x40.size a ≤ S2000x40.size a
  h_S2000x40 : 0 < S2000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x40_S2000x40_1_0_0_1_n_n_wf : DotDims.WF S2000x16 S16x40 S2000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x40.size a ≤ S16x40.size a
  hwx1_1 : ∀ i : grid1.Coords, EltTy.bits .f32 = 32 ∨ (Rect.block (s := S16x40) S16x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x40.size a ≤ S100000x40.size a
  hwx1_2 : ∀ i : grid1.Coords, EltTy.bits .f32 = 32 ∨ (Rect.block (s := S100000x40) S2000x40.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x40_S2000x40_1_0_0_1_n_n : DotDims S2000x16 S16x40 S2000x40 where
  lhsContracting := [1]
  rhsContracting := [0]
  lhsNonContracting := [0]
  rhsNonContracting := [1]
  lhsBatch := []
  rhsBatch := []
  wf := dot_S2000x16_S16x40_S2000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 97
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3300000, .i32⟩
  | .hbm, ⟨22, _⟩ => ⟨S3300000, .i1⟩
  | .hbm, ⟨23, _⟩ => ⟨S_, .i32⟩
  | .hbm, ⟨24, _⟩ => ⟨S3300000, .i32⟩
  | .hbm, ⟨25, _⟩ => ⟨S3300000, .i32⟩
  | .hbm, ⟨26, _⟩ => ⟨S3300000, .i32⟩
  | .hbm, ⟨27, _⟩ => ⟨S3300000x1, .i32⟩
  | .hbm, ⟨28, _⟩ => ⟨S3300000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S100000x16, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x16, .f32⟩
  | .hbm, ⟨49, _⟩ => ⟨S3300000x1, .f32⟩
  | .hbm, ⟨50, _⟩ => ⟨S3300000x16, .f32⟩
  | .hbm, ⟨51, _⟩ => ⟨S3300000x16, .f32⟩
  | .hbm, ⟨52, _⟩ => ⟨S_, .f32⟩
  | .hbm, ⟨53, _⟩ => ⟨S100000x16, .f32⟩
  | .hbm, ⟨54, _⟩ => ⟨S3300000x1, .i32⟩
  | .hbm, ⟨55, _⟩ => ⟨S100000x16, .f32⟩
  | .hbm, ⟨56, _⟩ => ⟨S1x16, .f32⟩
  | .hbm, ⟨57, _⟩ => ⟨S100000x16, .f32⟩
  | .hbm, ⟨58, _⟩ => ⟨S100000x16, .f32⟩
  | .hbm, ⟨59, _⟩ => ⟨S_, .f32⟩
  | .hbm, ⟨60, _⟩ => ⟨S100000x16, .f32⟩
  | .hbm, ⟨61, _⟩ => ⟨S100000x16, .f32⟩
  | .hbm, ⟨62, _⟩ => ⟨S100000x40, .f32⟩
  | .hbm, ⟨63, _⟩ => ⟨S_, .i32⟩
  | .hbm, ⟨64, _⟩ => ⟨S3300000, .i32⟩
  | .hbm, ⟨65, _⟩ => ⟨S3300000, .i1⟩
  | .hbm, ⟨66, _⟩ => ⟨S_, .i32⟩
  | .hbm, ⟨67, _⟩ => ⟨S3300000, .i32⟩
  | .hbm, ⟨68, _⟩ => ⟨S3300000, .i32⟩
  | .hbm, ⟨69, _⟩ => ⟨S3300000, .i32⟩
  | .hbm, ⟨70, _⟩ => ⟨S3300000x1, .i32⟩
  | .hbm, ⟨71, _⟩ => ⟨S3300000x40, .f32⟩
  | .hbm, ⟨72, _⟩ => ⟨S3300000x1, .f32⟩
  | .hbm, ⟨73, _⟩ => ⟨S3300000x40, .f32⟩
  | .hbm, ⟨74, _⟩ => ⟨S3300000x40, .f32⟩
  | .hbm, ⟨75, _⟩ => ⟨S_, .f32⟩
  | .hbm, ⟨76, _⟩ => ⟨S100000x40, .f32⟩
  | .hbm, ⟨77, _⟩ => ⟨S3300000x1, .i32⟩
  | .hbm, ⟨78, _⟩ => ⟨S100000x40, .f32⟩
  | .hbm, ⟨79, _⟩ => ⟨S1x40, .f32⟩
  | .hbm, ⟨80, _⟩ => ⟨S100000x40, .f32⟩
  | .hbm, ⟨81, _⟩ => ⟨S100000x40, .f32⟩
  | .hbm, ⟨82, _⟩ => ⟨S_, .f32⟩
  | .hbm, ⟨83, _⟩ => ⟨S100000, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S100000x1, .f32⟩
  | .hbm, ⟨88, _⟩ => ⟨S100000x40, .f32⟩
  | .hbm, ⟨89, _⟩ => ⟨S100000x40, .f32⟩
  | .hbm, ⟨90, _⟩ => ⟨S100000x40, .f32⟩
  | .hbm, ⟨91, _⟩ => ⟨S_, .f32⟩
  | .hbm, ⟨92, _⟩ => ⟨S100000, .f32⟩
  | .hbm, ⟨93, _⟩ => ⟨S100000x1, .f32⟩
  | .hbm, ⟨94, _⟩ => ⟨S100000x1, .f32⟩
  | .hbm, ⟨95, _⟩ => ⟨S100000x40, .f32⟩
  | .hbm, ⟨96, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_call1_cst : Ref sig .tc := ⟨.hbm, 82, rfl⟩
abbrev main_call1_v0 : Ref sig .tc := ⟨.hbm, 83, rfl⟩
abbrev main_call1_cst_0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_cst_1 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_v62 : Ref sig .tc := ⟨.hbm, 96, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KernelRun.lean ====
/-
  The idealized kernel's run with its result NAMED.  @main is seven segments: host operations, the first row-tiled
  product (x · W1), host operations, the second row-tiled product (relu(…) · W2), host operations.  The buffer
  contents at the segment boundaries are a fold from the launch memory (W0 … W7 of the frame module); every weakly
  fair execution ends with each unscoped buffer at W7, so the result buffer ends at W7's value there and the six
  arguments end as launched.
-/
import proofs.«138035_j67654324846930_1_alg».proof.Proof.Gen.KernelIdeal.Frame

set_option maxRecDepth 16384

noncomputable section

namespace Cert.KernelIdeal.RunNamed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents `W7` and the arguments as launched. -/
theorem run : θ_run defs (onTc (τ := τ) (main (F := F))) ⟨m, fun _ => 0, ρ⟩ (fun r => ∀ c : Dev nD,
      r.2.mem ((c.tc : Thread nD τ).loc main_v62) = W7 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v62 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunNamed

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibHostDot.lean ====
/-
  A host matrix product and a column broadcast read at an entry, at the ideal values.

  The host's `dot_general` of an M×K by a K×N matrix (contract the left operand's columns against the right operand's
  rows, no batch axis) is, at the entry (a, b), the sum over the contracted coordinate c of `A (a, c) · B (c, b)`: the
  same sum a kernel's plain product into a zero accumulator has. A column [a, 1] broadcast along its unit axis to
  [a, b] repeats the row's one entry.
-/
import Idealize.ShloMosaic.Lib.ValueIdx
import Idealize.ShloMosaic.Lib.Pipeline.Value
import Idealize.ShloMosaic.PureOps.Ideal.Laws

noncomputable section

namespace Cert.HostDot

open Idealize.ShloMosaic Idealize.ShloMosaic.ValueIdx

/-- The host's plain product of an M×K by a K×N matrix, read at an entry, is the sum over the contracted coordinate of
    the products of the entries. At the ideal values. -/
theorem dotGeneral_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    Host.dotGeneral (DotDims.plain M K N) prec A B (ix2 a b) = ∑ c : Fin K, A (ix2 a c) * B (ix2 c b) := by
  simp only [Host.dotGeneral]
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A column [a, 1] broadcast along its unit axis to [a, b]: entry (p, q) is the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.HostDot

end
-- ==== Proof.RowTiles0.lean ====
/-
  The first projection x · W1 computed in row tiles is the whole product.

  The grid has 50 points; point t stages rows t·2000 … t·2000+1999 of the left operand (all 512 columns) and the whole
  right operand, multiplies the two blocks into a zero accumulator and writes the 16-column result back as rows
  t·2000 … t·2000+1999 of the output.  At the ideal values the rounding of the operands to bf16 is the identity and a
  product into zero is the plain sum, so entry (p, q) of the block written at point t is
  ∑ k, X (t·2000 + p, k) · W (k, q): the entry (t·2000 + p, q) of the whole product X · W, the same sum term for term.
  The 50 blocks tile the 100000 rows, so the output array ends holding the whole product.  No finiteness is used.
-/
import proofs.«138035_j67654324846930_1_alg».proof.Proof.Gen.KernelIdeal.Frame
import proofs.«138035_j67654324846930_1_alg».proof.Proof.LibPlainDot
import proofs.«138035_j67654324846930_1_alg».proof.Proof.LibHostDot
import Idealize.ShloMosaic.Lib.ValueIdx
import Idealize.ShloMosaic.Lib.Pipeline.Value

set_option maxRecDepth 16384

noncomputable section

namespace Cert.KernelIdeal.RowTiles0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The whole product X · W of a 100000×512 by a 512×16 matrix, as the host's plain `dot_general` at the ideal values. -/
abbrev whole (X : FVec Ideal ⟨2, ![100000, 512]⟩ .f32) (W : FVec Ideal ⟨2, ![512, 16]⟩ .f32) : FVec Ideal ⟨2, ![100000, 16]⟩ .f32 :=
  Host.dotGeneral (F := Ideal) (DotDims.plain 100000 512 16) none X W

theorem zeros : (![0, 0] : Fin 2 → Nat) = fun _ => 0 := funext fun a => by fin_cases a <;> rfl

/-- The body's one stored value at an entry of the block: the sum over the contracted coordinate. -/
theorem block_entry (x : Vec Ideal S2000x512 .f32) (w : Vec Ideal S512x16 .f32) (p : Fin 2000) (q : Fin 16) :
    k0_pay1 (F := Ideal) x w (ix2 p q) = ∑ k : Fin 512, x (ix2 p k) * w (ix2 k q) := by
  unfold k0_pay1
  exact (Cert.PlainDot.matmul_zero_plain_apply none (truncf .bf16 x bitsLt_bf16_f32) (truncf .bf16 w bitsLt_bf16_f32) p q).trans
    (Finset.sum_congr rfl fun _ _ => rfl)

/-- The printed index maps over the grid: the left operand's and the output's row blocks move together with the point,
    every other block index is zero. -/
theorem index_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

theorem point_lt (t : Fin cfg0.N) : t.val < 50 := lt_of_lt_of_eq t.isLt N_0

variable (V : (c : Dev nD) → (b : Ref sig .tc) → Buf (Elt Ideal) ((c : Thread nD τ).loc b))

/-- What point `t` writes back is block `t` of the whole product of the arrays the region finds. -/
theorem flushed_eq (c : Dev nD) (t : Fin cfg0.N) :
    (dat0 (F := Ideal) V c).flushed 2 t
      = ((cfg0.win 2).blk t).view.read (Elt Ideal) (whole (V c main_arg0) (V c main_arg2)) := by
  show (cfg0.win 2).cut (grid0.coords t) ((dat0 V c).after 2 t) = _
  rw [after0_2]
  unfold out0_2
  rw [View.canon_unit_zero zeros]
  simp only [View.ld_unit_zero (S := S2000x512) zeros, View.ld_unit_zero (S := S512x16) zeros]
  obtain ⟨e0, e1, e2, e3, e4, e5⟩ := index_facts t
  have ht := point_lt t
  funext j
  obtain ⟨p, q, rfl⟩ : ∃ (p : Fin 2000) (q : Fin 16), j = ix2 p q := ⟨j 0, j 1, eq_ix2 j⟩
  have hp := p.isLt
  show k0_pay1 (iblk0 V c 0 t) (iblk0 V c 1 t) (ix2 p q)
    = whole (V c main_arg0) (V c main_arg2) (((cfg0.win 2).blk t).view.emb (ix2 p q))
  have hrow : t.val * 2000 + p.val < 100000 := by omega
  have h2 : ((cfg0.win 2).blk t).view.emb (ix2 p q) = ix2 (⟨t.val * 2000 + p.val, hrow⟩ : Fin 100000) q := by
    funext a; apply Fin.ext
    match a with
    | ⟨0, _⟩ => show win0_2.index t (0 : Fin 2) * 2000 + 1 * p.val = t.val * 2000 + p.val; omega
    | ⟨1, _⟩ => show win0_2.index t (1 : Fin 2) * 16 + 1 * q.val = q.val; omega
  rw [h2]
  refine (block_entry (iblk0 V c 0 t) (iblk0 V c 1 t) p q).trans ?_
  refine Eq.trans ?_ (Cert.HostDot.dotGeneral_plain_apply none (V c main_arg0) (V c main_arg2) (⟨t.val * 2000 + p.val, hrow⟩ : Fin 100000) q).symm
  refine Finset.sum_congr rfl fun k _ => ?_
  have h0 : ((cfg0.win 0).blk t).view.emb (ix2 p k) = ix2 (⟨t.val * 2000 + p.val, hrow⟩ : Fin 100000) k := by
    funext a; apply Fin.ext
    match a with
    | ⟨0, _⟩ => show win0_0.index t (0 : Fin 2) * 2000 + 1 * p.val = t.val * 2000 + p.val; omega
    | ⟨1, _⟩ => show win0_0.index t (1 : Fin 2) * 512 + 1 * k.val = k.val; omega
  have h1 : ((cfg0.win 1).blk t).view.emb (ix2 k q) = ix2 k q := by
    funext a; apply Fin.ext
    match a with
    | ⟨0, _⟩ => show win0_1.index t (0 : Fin 2) * 512 + 1 * k.val = k.val; omega
    | ⟨1, _⟩ => show win0_1.index t (1 : Fin 2) * 16 + 1 * q.val = q.val; omega
  have r0 : iblk0 V c 0 t (ix2 p k) = V c main_arg0 (ix2 (⟨t.val * 2000 + p.val, hrow⟩ : Fin 100000) k) := by
    show V c main_arg0 (((cfg0.win 0).blk t).view.emb (ix2 p k)) = _
    rw [h0]
  have r1 : iblk0 V c 1 t (ix2 k q) = V c main_arg2 (ix2 k q) := by
    show V c main_arg2 (((cfg0.win 1).blk t).view.emb (ix2 k q)) = _
    rw [h1]
  rw [r0, r1]

/-- An index of the output array is in point `t`'s block iff each coordinate is in the block's range on its axis. -/
theorem mem_block (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v27).slice (win0_2.rect t)).set ↔ _
  rw [View.set_slice_whole, Rect.mem_set_unit]
  exact Iff.rfl

/-- Row r of the output lies in the block of point r / 2000: the blocks tile the array. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ : ∃ t : Fin cfg0.N, t.val = (i 0).val / 2000 :=
    ⟨⟨(i 0).val / 2000, lt_of_lt_of_eq (by omega : (i 0).val / 2000 < 50) N_0.symm⟩, rfl⟩
  obtain ⟨e0, e1, e2, e3, e4, e5⟩ := index_facts t
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 16 ≤ (i 1).val ∧ (i 1).val < win0_2.index t (1 : Fin 2) * 16 + 16; omega

/-- The output array after the region is the whole product of the two arrays the region finds. -/
theorem final (c : Dev nD) : (dat0 (F := Ideal) V c).arrAt 2 cfg0.N = whole (V c main_arg0) (V c main_arg2) :=
  (dat0 (F := Ideal) V c).arrAt_eq_of_cover 2 (whole (V c main_arg0) (V c main_arg2)) (fun t _ => flushed_eq V c t) covered

end Cert.KernelIdeal.RowTiles0

end
-- ==== Proof.RowTiles1.lean ====
/-
  The second projection relu(…) · W2 computed in row tiles is the whole product.

  The grid has 50 points; point t stages rows t·2000 … t·2000+1999 of the left operand (all 16 columns; the body first re-reads the block at its own shape, which changes nothing) and the whole
  right operand, multiplies the two blocks into a zero accumulator and writes the 40-column result back as rows
  t·2000 … t·2000+1999 of the output.  At the ideal values the rounding of the operands to bf16 is the identity and a
  product into zero is the plain sum, so entry (p, q) of the block written at point t is
  ∑ k, X (t·2000 + p, k) · W (k, q): the entry (t·2000 + p, q) of the whole product X · W, the same sum term for term.
  The 50 blocks tile the 100000 rows, so the output array ends holding the whole product.  No finiteness is used.
-/
import proofs.«138035_j67654324846930_1_alg».proof.Proof.Gen.KernelIdeal.Frame
import proofs.«138035_j67654324846930_1_alg».proof.Proof.LibPlainDot
import proofs.«138035_j67654324846930_1_alg».proof.Proof.LibHostDot
import Idealize.ShloMosaic.Lib.ValueIdx
import Idealize.ShloMosaic.Lib.Pipeline.Value

set_option maxRecDepth 16384

noncomputable section

namespace Cert.KernelIdeal.RowTiles1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The whole product X · W of a 100000×16 by a 16×40 matrix, as the host's plain `dot_general` at the ideal values. -/
abbrev whole (X : FVec Ideal ⟨2, ![100000, 16]⟩ .f32) (W : FVec Ideal ⟨2, ![16, 40]⟩ .f32) : FVec Ideal ⟨2, ![100000, 40]⟩ .f32 :=
  Host.dotGeneral (F := Ideal) (DotDims.plain 100000 16 40) none X W

theorem zeros : (![0, 0] : Fin 2 → Nat) = fun _ => 0 := funext fun a => by fin_cases a <;> rfl

/-- The body's one stored value at an entry of the block: the sum over the contracted coordinate. -/
theorem block_entry (x : Vec Ideal S2000x16 .f32) (w : Vec Ideal S16x40 .f32) (p : Fin 2000) (q : Fin 40) :
    k1_pay1 (F := Ideal) x w (ix2 p q) = ∑ k : Fin 16, x (ix2 p k) * w (ix2 k q) := by
  unfold k1_pay1
  exact (Cert.PlainDot.matmul_zero_plain_apply none (truncf .bf16 (shapeCast S2000x16 x shapeCasts_S2000x16_S2000x16) bitsLt_bf16_f32) (truncf .bf16 w bitsLt_bf16_f32) p q).trans
    (Finset.sum_congr rfl fun _ _ => by rw [shapeCast_self]; rfl)

/-- The printed index maps over the grid: the left operand's and the output's row blocks move together with the point,
    every other block index is zero. -/
theorem index_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

theorem point_lt (t : Fin cfg1.N) : t.val < 50 := lt_of_lt_of_eq t.isLt N_1

variable (V : (c : Dev nD) → (b : Ref sig .tc) → Buf (Elt Ideal) ((c : Thread nD τ).loc b))

/-- What point `t` writes back is block `t` of the whole product of the arrays the region finds. -/
theorem flushed_eq (c : Dev nD) (t : Fin cfg1.N) :
    (dat1 (F := Ideal) V c).flushed 2 t
      = ((cfg1.win 2).blk t).view.read (Elt Ideal) (whole (V c main_v44) (V c main_arg4)) := by
  show (cfg1.win 2).cut (grid1.coords t) ((dat1 V c).after 2 t) = _
  rw [after1_2]
  unfold out1_2
  rw [View.canon_unit_zero zeros]
  simp only [View.ld_unit_zero (S := S2000x16) zeros, View.ld_unit_zero (S := S16x40) zeros]
  obtain ⟨e0, e1, e2, e3, e4, e5⟩ := index_facts t
  have ht := point_lt t
  funext j
  obtain ⟨p, q, rfl⟩ : ∃ (p : Fin 2000) (q : Fin 40), j = ix2 p q := ⟨j 0, j 1, eq_ix2 j⟩
  have hp := p.isLt
  show k1_pay1 (iblk1 V c 0 t) (iblk1 V c 1 t) (ix2 p q)
    = whole (V c main_v44) (V c main_arg4) (((cfg1.win 2).blk t).view.emb (ix2 p q))
  have hrow : t.val * 2000 + p.val < 100000 := by omega
  have h2 : ((cfg1.win 2).blk t).view.emb (ix2 p q) = ix2 (⟨t.val * 2000 + p.val, hrow⟩ : Fin 100000) q := by
    funext a; apply Fin.ext
    match a with
    | ⟨0, _⟩ => show win1_2.index t (0 : Fin 2) * 2000 + 1 * p.val = t.val * 2000 + p.val; omega
    | ⟨1, _⟩ => show win1_2.index t (1 : Fin 2) * 40 + 1 * q.val = q.val; omega
  rw [h2]
  refine (block_entry (iblk1 V c 0 t) (iblk1 V c 1 t) p q).trans ?_
  refine Eq.trans ?_ (Cert.HostDot.dotGeneral_plain_apply none (V c main_v44) (V c main_arg4) (⟨t.val * 2000 + p.val, hrow⟩ : Fin 100000) q).symm
  refine Finset.sum_congr rfl fun k _ => ?_
  have h0 : ((cfg1.win 0).blk t).view.emb (ix2 p k) = ix2 (⟨t.val * 2000 + p.val, hrow⟩ : Fin 100000) k := by
    funext a; apply Fin.ext
    match a with
    | ⟨0, _⟩ => show win1_0.index t (0 : Fin 2) * 2000 + 1 * p.val = t.val * 2000 + p.val; omega
    | ⟨1, _⟩ => show win1_0.index t (1 : Fin 2) * 16 + 1 * k.val = k.val; omega
  have h1 : ((cfg1.win 1).blk t).view.emb (ix2 k q) = ix2 k q := by
    funext a; apply Fin.ext
    match a with
    | ⟨0, _⟩ => show win1_1.index t (0 : Fin 2) * 16 + 1 * k.val = k.val; omega
    | ⟨1, _⟩ => show win1_1.index t (1 : Fin 2) * 40 + 1 * q.val = q.val; omega
  have r0 : iblk1 V c 0 t (ix2 p k) = V c main_v44 (ix2 (⟨t.val * 2000 + p.val, hrow⟩ : Fin 100000) k) := by
    show V c main_v44 (((cfg1.win 0).blk t).view.emb (ix2 p k)) = _
    rw [h0]
  have r1 : iblk1 V c 1 t (ix2 k q) = V c main_arg4 (ix2 k q) := by
    show V c main_arg4 (((cfg1.win 1).blk t).view.emb (ix2 k q)) = _
    rw [h1]
  rw [r0, r1]

/-- An index of the output array is in point `t`'s block iff each coordinate is in the block's range on its axis. -/
theorem mem_block (t : Fin cfg1.N) (i : S100000x40.Idx) :
    i ∈ ((cfg1.win 2).blk t).view.set ↔ ∀ a : Fin 2, win1_2.index t a * S2000x40.size a ≤ (i a).val ∧ (i a).val < win1_2.index t a * S2000x40.size a + S2000x40.size a := by
  show i ∈ ((View.whole main_v45).slice (win1_2.rect t)).set ↔ _
  rw [View.set_slice_whole, Rect.mem_set_unit]
  exact Iff.rfl

/-- Row r of the output lies in the block of point r / 2000: the blocks tile the array. -/
theorem covered (i : S100000x40.Idx) :
    ∃ t : Fin cfg1.N, (cfg1.win 2).flush t = true ∧ i ∈ ((cfg1.win 2).blk t).view.set := by
  have hi0 : (i 0).val < 100000 := (i 0).isLt
  have hi1 : (i 1).val < 40 := (i 1).isLt
  obtain ⟨t, ht⟩ : ∃ t : Fin cfg1.N, t.val = (i 0).val / 2000 :=
    ⟨⟨(i 0).val / 2000, lt_of_lt_of_eq (by omega : (i 0).val / 2000 < 50) N_1.symm⟩, rfl⟩
  obtain ⟨e0, e1, e2, e3, e4, e5⟩ := index_facts t
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 40 ≤ (i 1).val ∧ (i 1).val < win1_2.index t (1 : Fin 2) * 40 + 40; omega

/-- The output array after the region is the whole product of the two arrays the region finds. -/
theorem final (c : Dev nD) : (dat1 (F := Ideal) V c).arrAt 2 cfg1.N = whole (V c main_v44) (V c main_arg4) :=
  (dat1 (F := Ideal) V c).arrAt_eq_of_cover 2 (whole (V c main_v44) (V c main_arg4)) (fun t _ => flushed_eq V c t) covered

end Cert.KernelIdeal.RowTiles1

end
-- ==== Proof.Spec.lean ====
/-
  The graph convolution's host chain, named piece by piece as pure functions of array values.

  With N = 100000 nodes and E = 3200000 edges, `sources` / `targets` are the two rows of the edge list, each followed by
  the self loops 0 … N-1 (length E + N).  `wrapped` makes an index vector non-negative (a negative entry counts from the
  end) and gives it the trailing unit axis a gather takes.  `invSqrtDegree` is D^{-1/2}: the reciprocal square root of
  the number of edges arriving at each node.  `edgeNorm` is, per edge, D^{-1/2} at its source times D^{-1/2} at its
  target.  One layer of the convolution takes a projected feature matrix h·W, gathers its rows at the sources, scales
  each by the edge's norm, adds them up at the targets and adds the bias: `hidden` is the first layer followed by
  max(·, 0), `logits` the second, and `logSoftmax` subtracts from each row its maximum and the logarithm of the sum of
  the exponentials of what is left.  Both programs apply exactly these operations around their two matrix products.
-/
import proofs.«138035_j67654324846930_1_alg».proof.KernelIdeal
import Idealize.ShloMosaic.PureOps.Ideal

noncomputable section

namespace Cert.KernelIdeal.Spec

open Idealize.ShloMosaic Cert.KernelIdeal

variable {F : FTy → Type} [FloatOps F] [Facts₀]
open Facts₀

/-- Row 0 of the edge list, then the self loops. -/
def sources (x1 : (⟨S2x3200000, .i32⟩ : BufTy).Contents (Elt F)) : (⟨S3300000, .i32⟩ : BufTy).Contents (Elt F) :=
  concatenate S3300000 0 [⟨S3200000, (shapeCast _ (extractStridedSlice S1x3200000 ![0, 0] x1 slices_S2x3200000_S1x3200000_0_0) shapeCasts_S1x3200000_S3200000)⟩, ⟨S100000, (iotaInDim S100000 32 0)⟩] concatenates_S3200000_S100000_S3300000_d0

/-- Row 1 of the edge list, then the self loops. -/
def targets (x1 : (⟨S2x3200000, .i32⟩ : BufTy).Contents (Elt F)) : (⟨S3300000, .i32⟩ : BufTy).Contents (Elt F) :=
  concatenate S3300000 0 [⟨S3200000, (shapeCast _ (extractStridedSlice S1x3200000 ![1, 0] x1 slices_S2x3200000_S1x3200000_1_0) shapeCasts_S1x3200000_S3200000)⟩, ⟨S100000, (iotaInDim S100000 32 0)⟩] concatenates_S3200000_S100000_S3300000_d0

/-- An index vector made non-negative, with its trailing unit axis. -/
def wrapped (v : (⟨S3300000, .i32⟩ : BufTy).Contents (Elt F)) : (⟨S3300000x1, .i32⟩ : BufTy).Contents (Elt F) :=
  (broadcastInDim S3300000x1 ![0] bcast_S3300000_S3300000x1_0 (select (cmpi .slt v (broadcastInDim S3300000 ![] bcast_S_S3300000 (constantI S_ 32 0#32))) (addi v (broadcastInDim S3300000 ![] bcast_S_S3300000 (constantI S_ 32 100000#32))) v))

/-- D^{-1/2}: one over the square root of the number of edges (self loop included) arriving at each node. -/
def invSqrtDegree (tgt : (⟨S3300000, .i32⟩ : BufTy).Contents (Elt F)) : (⟨S100000, .f32⟩ : BufTy).Contents (Elt F) :=
  Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 tgt) (broadcastInDim S3300000 ![] bcast_S_S3300000 (constant S_ .f32 0x3F800000#32)))

/-- Per edge: D^{-1/2} at the source times D^{-1/2} at the target. -/
def edgeNorm (src tgt : (⟨S3300000, .i32⟩ : BufTy).Contents (Elt F)) : (⟨S3300000, .f32⟩ : BufTy).Contents (Elt F) :=
  mulf (Host.gather gather_S100000_S3300000x1_S3300000_n_0_n_n_0_1_1 (invSqrtDegree tgt) (wrapped src)) (Host.gather gather_S100000_S3300000x1_S3300000_n_0_n_n_0_1_1 (invSqrtDegree tgt) (wrapped tgt))

/-- The first layer after its projection `p = x · W1`: rows of `p` gathered at the sources, scaled by the edge norm, summed at
    the targets, plus the bias, then max(·, 0). -/
def hidden (p : (⟨S100000x16, .f32⟩ : BufTy).Contents (Elt F)) (src tgt : (⟨S3300000, .i32⟩ : BufTy).Contents (Elt F)) (nrm : (⟨S3300000, .f32⟩ : BufTy).Contents (Elt F)) (b1 : (⟨S16, .f32⟩ : BufTy).Contents (Elt F)) : (⟨S100000x16, .f32⟩ : BufTy).Contents (Elt F) :=
  maximumf (addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 tgt) (mulf (Host.gather gather_S100000x16_S3300000x1_S3300000x16_1_0_n_n_0_1_116 p (wrapped src)) (broadcastInDim S3300000x16 ![0, 1] bcast_S3300000x1_S3300000x16_0_1 (broadcastInDim S3300000x1 ![0] bcast_S3300000_S3300000x1_0 nrm)))) (broadcastInDim S100000x16 ![0, 1] bcast_S1x16_S100000x16_0_1 (broadcastInDim S1x16 ![1] bcast_S16_S1x16_1 b1))) (broadcastInDim S100000x16 ![] bcast_S_S100000x16 (constant S_ .f32 0x00000000#32))

/-- The second layer after its projection `p = h · W2`: the same aggregation over 40 columns, plus the bias. -/
def logits (p : (⟨S100000x40, .f32⟩ : BufTy).Contents (Elt F)) (src tgt : (⟨S3300000, .i32⟩ : BufTy).Contents (Elt F)) (nrm : (⟨S3300000, .f32⟩ : BufTy).Contents (Elt F)) (b2 : (⟨S40, .f32⟩ : BufTy).Contents (Elt F)) : (⟨S100000x40, .f32⟩ : BufTy).Contents (Elt F) :=
  addf (Host.scatterAdd scatter_S100000x40_S3300000x1_S3300000x40_1_0_0_1 (broadcastInDim S100000x40 ![] bcast_S_S100000x40 (constant S_ .f32 0x00000000#32)) (broadcastInDim S3300000x1 ![0] bcast_S3300000_S3300000x1_0 tgt) (mulf (Host.gather gather_S100000x40_S3300000x1_S3300000x40_1_0_n_n_0_1_140 p (wrapped src)) (broadcastInDim S3300000x40 ![0, 1] bcast_S3300000x1_S3300000x40_0_1 (broadcastInDim S3300000x1 ![0] bcast_S3300000_S3300000x1_0 nrm)))) (broadcastInDim S100000x40 ![0, 1] bcast_S1x40_S100000x40_0_1 (broadcastInDim S1x40 ![1] bcast_S40_S1x40_1 b2))

/-- Each row's maximum (never below -inf), repeated along the row. -/
def rowMax (z : (⟨S100000x40, .f32⟩ : BufTy).Contents (Elt F)) : (⟨S100000x40, .f32⟩ : BufTy).Contents (Elt F) :=
  broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x40_S100000_d1 h_S_)))

/-- log-softmax along each row: z - max - log (sum of exp (z - max)). -/
def logSoftmax (z : (⟨S100000x40, .f32⟩ : BufTy).Contents (Elt F)) : (⟨S100000x40, .f32⟩ : BufTy).Contents (Elt F) :=
  subf (subf z (rowMax z)) (broadcastInDim S100000x40 ![0, 1] bcast_S100000x1_S100000x40_0_1 (Host.log (broadcastInDim S100000x1 ![0] bcast_S100000_S100000x1_0 (Host.reduceAdd (Host.exp (subf z (rowMax z))) (constant S_ .f32 0x00000000#32) reducesTo_S100000x40_S100000_d1 h_S_))))

/-- The first projection at the ideal values: the plain product of a 100000×512 by a 512×16 matrix. -/
abbrev projection1 (X : FVec Ideal ⟨2, ![100000, 512]⟩ .f32) (W : FVec Ideal ⟨2, ![512, 16]⟩ .f32) : FVec Ideal ⟨2, ![100000, 16]⟩ .f32 :=
  Host.dotGeneral (F := Ideal) (DotDims.plain 100000 512 16) none X W

/-- The second projection at the ideal values: the plain product of a 100000×16 by a 16×40 matrix. -/
abbrev projection2 (X : FVec Ideal ⟨2, ![100000, 16]⟩ .f32) (W : FVec Ideal ⟨2, ![16, 40]⟩ .f32) : FVec Ideal ⟨2, ![100000, 40]⟩ .f32 :=
  Host.dotGeneral (F := Ideal) (DotDims.plain 100000 16 40) none X W

/-- The whole network at the ideal values, as one function of the six arguments: the first projection x · W1 (a plain
    matrix product), the first layer, the second projection · W2, the second layer, log-softmax — with the sources, the
    targets and the edge norm built from the edge list. -/
def result (x0 : (⟨S100000x512, .f32⟩ : BufTy).Contents (Elt Ideal)) (x1 : (⟨S2x3200000, .i32⟩ : BufTy).Contents (Elt Ideal)) (x2 : (⟨S512x16, .f32⟩ : BufTy).Contents (Elt Ideal))
    (x3 : (⟨S16, .f32⟩ : BufTy).Contents (Elt Ideal)) (x4 : (⟨S16x40, .f32⟩ : BufTy).Contents (Elt Ideal)) (x5 : (⟨S40, .f32⟩ : BufTy).Contents (Elt Ideal)) : (⟨S100000x40, .f32⟩ : BufTy).Contents (Elt Ideal) :=
  logSoftmax (logits (projection2
      (hidden (projection1 x0 x2) (sources x1) (targets x1) (edgeNorm (sources x1) (targets x1)) x3) x4)
    (sources x1) (targets x1) (edgeNorm (sources x1) (targets x1)) x5)

end Cert.KernelIdeal.Spec

end
-- ==== Proof.LibTypedRefs.lean ====
/-
  Typed references of an inlined host function: a value moved to the buffer's own type and back is itself.

  A host function that was outlined (max(·, 0), log-softmax, …) is written over references that carry the type of the
  tensor they hold.  Each of its operations writes its result through the transport from the tensor's type to the
  buffer's type and reads each operand through the transport back, both along the equation "the buffer's type is the
  tensor's type".  When such a stretch of operations is read back as one composed term, every intermediate value is left
  wrapped in the pair: back ∘ there.  The pair is the identity for ANY typed reference (destruct the reference and
  substitute its equation), so it can be rewritten away without knowing the references.  What then remains is at most
  one transport per buffer that an operation outside the function wrote and one at the function's result, each the
  identity by computation at its literal reference over a variable value.  On a deep body (log-softmax is fifteen
  operations) removing the pairs first keeps the comparison of the composed term with its closed form a comparison of
  syntax, where leaving them in makes it unfold the operations themselves at their full extents.
-/
import Idealize.ShloMosaic.Lib.StableHlo

namespace Cert.Lib.TypedRefs

open Idealize.ShloMosaic Idealize.ShloMosaic.StableHlo

variable {sig : RefSig} {Val : EltTy → Type} {T : BufTy}

/-- To the buffer's type and back. -/
theorem ofBuf_toBuf (x : TRef sig T) (v : T.Contents Val) : x.ofBuf (x.toBuf v) = v := by
  obtain ⟨r, h, h2, h3⟩ := x
  subst h
  rfl

/-- To the tensor's type and back. -/
theorem toBuf_ofBuf (x : TRef sig T) (v : x.ref.ty.Contents Val) : x.toBuf (x.ofBuf v) = v := by
  obtain ⟨r, h, h2, h3⟩ := x
  subst h
  rfl

end Cert.Lib.TypedRefs
-- ==== Proof.KernelStages.lean ====
/-
  KernelIdeal's stretches of host operations read back, each from ANY buffer contents `Vb`.

  The stretch before the first product builds, from the edge list alone, the sources, the targets and the edge norm.
  The stretch between the two products turns the first product into the hidden features; the stretch after the second
  product turns it into the log-softmax of the logits.  Each lemma says which pure function of which buffers a stretch
  leaves in a buffer; a buffer a stretch does not write keeps its contents.
-/
import proofs.«138035_j67654324846930_1_alg».proof.Proof.Gen.KernelIdeal
import proofs.«138035_j67654324846930_1_alg».proof.Proof.Gen.KernelIdeal.Launch
import proofs.«138035_j67654324846930_1_alg».proof.Proof.Spec
import proofs.«138035_j67654324846930_1_alg».proof.Proof.LibTypedRefs
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen

variable {F : FTy → Type} [FloatOps F] (Vb : Valuation τ sig (Elt F))

/-! ## The two typed references of log-softmax whose transports have no partner: the identity at the literal reference -/

/-- The logits' buffer read at its tensor type: the buffer's type is that type. -/
theorem ofBuf_logits (v : (⟨S100000x40, .f32⟩ : BufTy).Contents (Elt F)) (h1 h2 h3) :
    (TRef.of (sig := sig) (T := ⟨S100000x40, .f32⟩) main_v61 h1 h2 h3).ofBuf v = v := rfl

/-- The result written at its buffer's type: the buffer's type is the tensor's. -/
theorem toBuf_result (v : (⟨S100000x40, .f32⟩ : BufTy).Contents (Elt F)) (h1 h2 h3) :
    (TRef.of (sig := sig) (T := ⟨S100000x40, .f32⟩) main_v62 h1 h2 h3).toBuf v = v := rfl

/-! ## Before the first product -/

theorem pre_sources : after (hostOps0 (F := F)) Vb (Proc.devRef (τ := τ) .tc main_v3) = Cert.KernelIdeal.Spec.sources (Vb (Proc.devRef (τ := τ) .tc main_arg1)) := by
  dsimp only [hostOps0]; after_results_simp; rfl
theorem pre_targets : after (hostOps0 (F := F)) Vb (Proc.devRef (τ := τ) .tc main_v6) = Cert.KernelIdeal.Spec.targets (Vb (Proc.devRef (τ := τ) .tc main_arg1)) := by
  dsimp only [hostOps0]; after_results_simp; rfl
theorem pre_norm : after (hostOps0 (F := F)) Vb (Proc.devRef (τ := τ) .tc main_v26)
    = Cert.KernelIdeal.Spec.edgeNorm (Cert.KernelIdeal.Spec.sources (Vb (Proc.devRef (τ := τ) .tc main_arg1))) (Cert.KernelIdeal.Spec.targets (Vb (Proc.devRef (τ := τ) .tc main_arg1))) := by
  dsimp only [hostOps0]; after_results_simp; rfl
theorem pre_arg0 : after (hostOps0 (F := F)) Vb (Proc.devRef (τ := τ) .tc main_arg0) = Vb (Proc.devRef (τ := τ) .tc main_arg0) := by dsimp only [hostOps0]; after_results_simp
theorem pre_arg2 : after (hostOps0 (F := F)) Vb (Proc.devRef (τ := τ) .tc main_arg2) = Vb (Proc.devRef (τ := τ) .tc main_arg2) := by dsimp only [hostOps0]; after_results_simp
theorem pre_arg3 : after (hostOps0 (F := F)) Vb (Proc.devRef (τ := τ) .tc main_arg3) = Vb (Proc.devRef (τ := τ) .tc main_arg3) := by dsimp only [hostOps0]; after_results_simp
theorem pre_arg4 : after (hostOps0 (F := F)) Vb (Proc.devRef (τ := τ) .tc main_arg4) = Vb (Proc.devRef (τ := τ) .tc main_arg4) := by dsimp only [hostOps0]; after_results_simp
theorem pre_arg5 : after (hostOps0 (F := F)) Vb (Proc.devRef (τ := τ) .tc main_arg5) = Vb (Proc.devRef (τ := τ) .tc main_arg5) := by dsimp only [hostOps0]; after_results_simp

/-! ## Between the two products -/

theorem mid_hidden : after (hostOps1_1 (F := F)) (after hostOps1 Vb) (Proc.devRef (τ := τ) .tc main_v44)
    = Cert.KernelIdeal.Spec.hidden (Vb (Proc.devRef (τ := τ) .tc main_v27)) (Vb (Proc.devRef (τ := τ) .tc main_v3)) (Vb (Proc.devRef (τ := τ) .tc main_v6)) (Vb (Proc.devRef (τ := τ) .tc main_v26)) (Vb (Proc.devRef (τ := τ) .tc main_arg3)) := by
  dsimp only [hostOps1, hostOps1_1]; after_results_simp; rfl
theorem mid_sources : after (hostOps1_1 (F := F)) (after hostOps1 Vb) (Proc.devRef (τ := τ) .tc main_v3) = Vb (Proc.devRef (τ := τ) .tc main_v3) := by dsimp only [hostOps1, hostOps1_1]; after_results_simp
theorem mid_targets : after (hostOps1_1 (F := F)) (after hostOps1 Vb) (Proc.devRef (τ := τ) .tc main_v6) = Vb (Proc.devRef (τ := τ) .tc main_v6) := by dsimp only [hostOps1, hostOps1_1]; after_results_simp
theorem mid_norm : after (hostOps1_1 (F := F)) (after hostOps1 Vb) (Proc.devRef (τ := τ) .tc main_v26) = Vb (Proc.devRef (τ := τ) .tc main_v26) := by dsimp only [hostOps1, hostOps1_1]; after_results_simp
theorem mid_arg4 : after (hostOps1_1 (F := F)) (after hostOps1 Vb) (Proc.devRef (τ := τ) .tc main_arg4) = Vb (Proc.devRef (τ := τ) .tc main_arg4) := by dsimp only [hostOps1, hostOps1_1]; after_results_simp
theorem mid_arg5 : after (hostOps1_1 (F := F)) (after hostOps1 Vb) (Proc.devRef (τ := τ) .tc main_arg5) = Vb (Proc.devRef (τ := τ) .tc main_arg5) := by dsimp only [hostOps1, hostOps1_1]; after_results_simp

/-! ## After the second product -/

theorem tail_result : after (hostOps2_1 (F := F)) (after hostOps2 Vb) (Proc.devRef (τ := τ) .tc main_v62)
    = Cert.KernelIdeal.Spec.logSoftmax (Cert.KernelIdeal.Spec.logits (Vb (Proc.devRef (τ := τ) .tc main_v45)) (Vb (Proc.devRef (τ := τ) .tc main_v3)) (Vb (Proc.devRef (τ := τ) .tc main_v6)) (Vb (Proc.devRef (τ := τ) .tc main_v26)) (Vb (Proc.devRef (τ := τ) .tc main_arg5))) := by
  dsimp only [hostOps2, hostOps2_1]; after_results_simp
  simp only [Cert.Lib.TypedRefs.ofBuf_toBuf]
  refine (toBuf_result _ _ _ _).trans ?_
  simp only [ofBuf_logits]
  rfl

end Cert.KernelIdeal.Stages

end
-- ==== Proof.KernelValue.lean ====
/-
  The idealized kernel's result as one function of its arguments.

  Walking the boundary contents W0 … W7 of the run: the first stretch of host operations builds the sources, the targets
  and the edge norm from the edge list and leaves the other arguments alone; the first region leaves the whole product
  x · W1 in its output array and every other buffer as it was; the second stretch turns that product into the hidden
  features; the second region leaves their whole product with W2; the last stretch aggregates once more and applies
  log-softmax.  Put together, the result buffer ends at `Spec.result` of the six arguments.
-/
import proofs.«138035_j67654324846930_1_alg».proof.Proof.KernelRun
import proofs.«138035_j67654324846930_1_alg».proof.Proof.RowTiles0
import proofs.«138035_j67654324846930_1_alg».proof.Proof.RowTiles1
import proofs.«138035_j67654324846930_1_alg».proof.Proof.KernelStages

set_option maxRecDepth 16384

noncomputable section

namespace Cert.KernelIdeal.Result

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The last boundary's contents at the result buffer. -/
theorem value (c : Dev nD) : W7 m ρ c (Proc.devRef (τ := τ) .tc main_v62)
    = Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  -- after the first stretch
  have a0 : W1 m ρ c (Proc.devRef (τ := τ) .tc main_arg0) = (m ((c : Thread nD τ).loc main_arg0)) := Stages.pre_arg0 (W0 m ρ c)
  have a2 : W1 m ρ c (Proc.devRef (τ := τ) .tc main_arg2) = (m ((c : Thread nD τ).loc main_arg2)) := Stages.pre_arg2 (W0 m ρ c)
  have a3 : W1 m ρ c (Proc.devRef (τ := τ) .tc main_arg3) = (m ((c : Thread nD τ).loc main_arg3)) := Stages.pre_arg3 (W0 m ρ c)
  have a4 : W1 m ρ c (Proc.devRef (τ := τ) .tc main_arg4) = (m ((c : Thread nD τ).loc main_arg4)) := Stages.pre_arg4 (W0 m ρ c)
  have a5 : W1 m ρ c (Proc.devRef (τ := τ) .tc main_arg5) = (m ((c : Thread nD τ).loc main_arg5)) := Stages.pre_arg5 (W0 m ρ c)
  have s1 : W1 m ρ c (Proc.devRef (τ := τ) .tc main_v3) = (Spec.sources (m ((c : Thread nD τ).loc main_arg1))) := Stages.pre_sources (W0 m ρ c)
  have t1 : W1 m ρ c (Proc.devRef (τ := τ) .tc main_v6) = (Spec.targets (m ((c : Thread nD τ).loc main_arg1))) := Stages.pre_targets (W0 m ρ c)
  have n1 : W1 m ρ c (Proc.devRef (τ := τ) .tc main_v26) = (Spec.edgeNorm (Spec.sources (m ((c : Thread nD τ).loc main_arg1))) (Spec.targets (m ((c : Thread nD τ).loc main_arg1)))) := Stages.pre_norm (W0 m ρ c)
  -- after the first region: its output array holds the whole product, every other buffer is as before
  have s2 : W2 m ρ c (Proc.devRef (τ := τ) .tc main_v3) = (Spec.sources (m ((c : Thread nD τ).loc main_arg1))) := (W2_of_ne m ρ c main_v3 (by decide)).trans s1
  have t2 : W2 m ρ c (Proc.devRef (τ := τ) .tc main_v6) = (Spec.targets (m ((c : Thread nD τ).loc main_arg1))) := (W2_of_ne m ρ c main_v6 (by decide)).trans t1
  have n2 : W2 m ρ c (Proc.devRef (τ := τ) .tc main_v26) = (Spec.edgeNorm (Spec.sources (m ((c : Thread nD τ).loc main_arg1))) (Spec.targets (m ((c : Thread nD τ).loc main_arg1)))) := (W2_of_ne m ρ c main_v26 (by decide)).trans n1
  have b3 : W2 m ρ c (Proc.devRef (τ := τ) .tc main_arg3) = (m ((c : Thread nD τ).loc main_arg3)) := (W2_of_ne m ρ c main_arg3 (by decide)).trans a3
  have b4 : W2 m ρ c (Proc.devRef (τ := τ) .tc main_arg4) = (m ((c : Thread nD τ).loc main_arg4)) := (W2_of_ne m ρ c main_arg4 (by decide)).trans a4
  have b5 : W2 m ρ c (Proc.devRef (τ := τ) .tc main_arg5) = (m ((c : Thread nD τ).loc main_arg5)) := (W2_of_ne m ρ c main_arg5 (by decide)).trans a5
  have p1 : W2 m ρ c (Proc.devRef (τ := τ) .tc main_v27) = (RowTiles0.whole (m ((c : Thread nD τ).loc main_arg0)) (m ((c : Thread nD τ).loc main_arg2))) := by
    refine (W2_arr m ρ c 2).trans ((RowTiles0.final (V1 m ρ) c).trans ?_)
    show RowTiles0.whole (W1 m ρ c (Proc.devRef (τ := τ) .tc main_arg0)) (W1 m ρ c (Proc.devRef (τ := τ) .tc main_arg2)) = _
    rw [a0, a2]
  -- after the second stretch
  have h4 : W4 m ρ c (Proc.devRef (τ := τ) .tc main_v44) = (Spec.hidden (RowTiles0.whole (m ((c : Thread nD τ).loc main_arg0)) (m ((c : Thread nD τ).loc main_arg2))) (Spec.sources (m ((c : Thread nD τ).loc main_arg1))) (Spec.targets (m ((c : Thread nD τ).loc main_arg1))) (Spec.edgeNorm (Spec.sources (m ((c : Thread nD τ).loc main_arg1))) (Spec.targets (m ((c : Thread nD τ).loc main_arg1)))) (m ((c : Thread nD τ).loc main_arg3))) := by
    refine (Stages.mid_hidden (W2 m ρ c)).trans ?_
    rw [p1, s2, t2, n2, b3]
  have s4 : W4 m ρ c (Proc.devRef (τ := τ) .tc main_v3) = (Spec.sources (m ((c : Thread nD τ).loc main_arg1))) := (Stages.mid_sources (W2 m ρ c)).trans s2
  have t4 : W4 m ρ c (Proc.devRef (τ := τ) .tc main_v6) = (Spec.targets (m ((c : Thread nD τ).loc main_arg1))) := (Stages.mid_targets (W2 m ρ c)).trans t2
  have n4 : W4 m ρ c (Proc.devRef (τ := τ) .tc main_v26) = (Spec.edgeNorm (Spec.sources (m ((c : Thread nD τ).loc main_arg1))) (Spec.targets (m ((c : Thread nD τ).loc main_arg1)))) := (Stages.mid_norm (W2 m ρ c)).trans n2
  have c4 : W4 m ρ c (Proc.devRef (τ := τ) .tc main_arg4) = (m ((c : Thread nD τ).loc main_arg4)) := (Stages.mid_arg4 (W2 m ρ c)).trans b4
  have c5 : W4 m ρ c (Proc.devRef (τ := τ) .tc main_arg5) = (m ((c : Thread nD τ).loc main_arg5)) := (Stages.mid_arg5 (W2 m ρ c)).trans b5
  -- after the second region
  have p2 : W5 m ρ c (Proc.devRef (τ := τ) .tc main_v45) = (RowTiles1.whole (Spec.hidden (RowTiles0.whole (m ((c : Thread nD τ).loc main_arg0)) (m ((c : Thread nD τ).loc main_arg2))) (Spec.sources (m ((c : Thread nD τ).loc main_arg1))) (Spec.targets (m ((c : Thread nD τ).loc main_arg1))) (Spec.edgeNorm (Spec.sources (m ((c : Thread nD τ).loc main_arg1))) (Spec.targets (m ((c : Thread nD τ).loc main_arg1)))) (m ((c : Thread nD τ).loc main_arg3))) (m ((c : Thread nD τ).loc main_arg4))) := by
    refine (W5_arr m ρ c 2).trans ((RowTiles1.final (V4 m ρ) c).trans ?_)
    show RowTiles1.whole (W4 m ρ c (Proc.devRef (τ := τ) .tc main_v44)) (W4 m ρ c (Proc.devRef (τ := τ) .tc main_arg4)) = _
    rw [h4, c4]
  have s5 : W5 m ρ c (Proc.devRef (τ := τ) .tc main_v3) = (Spec.sources (m ((c : Thread nD τ).loc main_arg1))) := (W5_of_ne m ρ c main_v3 (by decide)).trans s4
  have t5 : W5 m ρ c (Proc.devRef (τ := τ) .tc main_v6) = (Spec.targets (m ((c : Thread nD τ).loc main_arg1))) := (W5_of_ne m ρ c main_v6 (by decide)).trans t4
  have n5 : W5 m ρ c (Proc.devRef (τ := τ) .tc main_v26) = (Spec.edgeNorm (Spec.sources (m ((c : Thread nD τ).loc main_arg1))) (Spec.targets (m ((c : Thread nD τ).loc main_arg1)))) := (W5_of_ne m ρ c main_v26 (by decide)).trans n4
  have d5 : W5 m ρ c (Proc.devRef (τ := τ) .tc main_arg5) = (m ((c : Thread nD τ).loc main_arg5)) := (W5_of_ne m ρ c main_arg5 (by decide)).trans c5
  -- the last stretch
  refine (Stages.tail_result (W5 m ρ c)).trans ?_
  rw [p2, s5, t5, n5, d5]
  rfl

/-- Every weakly fair execution of the idealized kernel terminates, nothing faulting, with the result at `Spec.result` of
    the arguments and the arguments as launched. -/
theorem run : θ_run defs (onTc (τ := τ) (main (F := Ideal))) ⟨m, fun _ => 0, ρ⟩ (fun r => ∀ c : Dev nD,
      r.2.mem ((c.tc : Thread nD τ).loc main_v62) = Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (value m ρ c), (h c).2⟩) (RunNamed.run m ρ)

end Cert.KernelIdeal.Result

end
-- ==== Proof.RefLine.lean ====
/-
  The reference program's @main as a straight line of host operations.

  The reference is 91 host operations and no kernel: the 33 that build the sources, the targets and the edge norm from the
  edge list; the first projection x · W1 as one `dot_general`, followed by the 19 operations of the first layer's
  aggregation and the 3 of max(·, 0); the second projection as one `dot_general`, followed by the 19 operations of the
  second layer's aggregation and the 15 of log-softmax.  Every weakly fair execution of a straight line terminates with each
  buffer at the fold of the operations' results over the launch contents; the five stretches are named so that the fold
  can be read back one stretch at a time.
-/
import proofs.«138035_j67654324846930_1_alg».proof.Proof.Gen.ReferenceIdeal
import Idealize.ShloMosaic.Lib.StableHlo.Run
import Idealize.ShloMosaic.Lib.Pipeline.Frame

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's 91 operations, in order (an inlined function's operations stand in its call's place). -/
abbrev ops : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    nullary main_c (constantI S_ 32 0#32),
    unary main_c main_v12 (broadcastInDim S3300000 ![] bcast_S_S3300000 : (⟨S_, .i32⟩ : BufTy).Contents (Elt F) → (⟨S3300000, .i32⟩ : BufTy).Contents (Elt F)),
    binary main_v3 main_v12 main_v13 (cmpi .slt : (⟨S3300000, .i32⟩ : BufTy).Contents (Elt F) → (⟨S3300000, .i32⟩ : BufTy).Contents (Elt F) → (⟨S3300000, .i1⟩ : BufTy).Contents (Elt F)),
    nullary main_c_1 (constantI S_ 32 100000#32),
    unary main_c_1 main_v14 (broadcastInDim S3300000 ![] bcast_S_S3300000 : (⟨S_, .i32⟩ : BufTy).Contents (Elt F) → (⟨S3300000, .i32⟩ : BufTy).Contents (Elt F)),
    binary main_v3 main_v14 main_v15 (addi : (⟨S3300000, .i32⟩ : BufTy).Contents (Elt F) → (⟨S3300000, .i32⟩ : BufTy).Contents (Elt F) → (⟨S3300000, .i32⟩ : BufTy).Contents (Elt F)),
    ternary main_v13 main_v15 main_v3 main_v16 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v16 main_v17 (broadcastInDim S3300000x1 ![0] bcast_S3300000_S3300000x1_0 : (⟨S3300000, .i32⟩ : BufTy).Contents (Elt F) → (⟨S3300000x1, .i32⟩ : BufTy).Contents (Elt F)),
    binary main_v11 main_v17 main_v18 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_2 (constantI S_ 32 0#32),
    unary main_c_2 main_v19 (broadcastInDim S3300000 ![] bcast_S_S3300000 : (⟨S_, .i32⟩ : BufTy).Contents (Elt F) → (⟨S3300000, .i32⟩ : BufTy).Contents (Elt F)),
    binary main_v6 main_v19 main_v20 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v21 (broadcastInDim S3300000 ![] bcast_S_S3300000 : (⟨S_, .i32⟩ : BufTy).Contents (Elt F) → (⟨S3300000, .i32⟩ : BufTy).Contents (Elt F)),
    binary main_v6 main_v21 main_v22 (addi : (⟨S3300000, .i32⟩ : BufTy).Contents (Elt F) → (⟨S3300000, .i32⟩ : BufTy).Contents (Elt F) → (⟨S3300000, .i32⟩ : BufTy).Contents (Elt F)),
    ternary main_v20 main_v22 main_v6 main_v23 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v23 main_v24 (broadcastInDim S3300000x1 ![0] bcast_S3300000_S3300000x1_0 : (⟨S3300000, .i32⟩ : BufTy).Contents (Elt F) → (⟨S3300000x1, .i32⟩ : BufTy).Contents (Elt F)),
    binary main_v11 main_v24 main_v25 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v18 main_v25 main_v26 (mulf : (⟨S3300000, .f32⟩ : BufTy).Contents (Elt F) → (⟨S3300000, .f32⟩ : BufTy).Contents (Elt F) → (⟨S3300000, .f32⟩ : BufTy).Contents (Elt F)),
    binary main_arg0 main_arg2 main_v27 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_c_4 (constantI S_ 32 0#32),
    unary main_c_4 main_v28 (broadcastInDim S3300000 ![] bcast_S_S3300000 : (⟨S_, .i32⟩ : BufTy).Contents (Elt F) → (⟨S3300000, .i32⟩ : BufTy).Contents (Elt F)),
    binary main_v3 main_v28 main_v29 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v30 (broadcastInDim S3300000 ![] bcast_S_S3300000 : (⟨S_, .i32⟩ : BufTy).Contents (Elt F) → (⟨S3300000, .i32⟩ : BufTy).Contents (Elt F)),
    binary main_v3 main_v30 main_v31 (addi : (⟨S3300000, .i32⟩ : BufTy).Contents (Elt F) → (⟨S3300000, .i32⟩ : BufTy).Contents (Elt F) → (⟨S3300000, .i32⟩ : BufTy).Contents (Elt F)),
    ternary main_v29 main_v31 main_v3 main_v32 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v32 main_v33 (broadcastInDim S3300000x1 ![0] bcast_S3300000_S3300000x1_0 : (⟨S3300000, .i32⟩ : BufTy).Contents (Elt F) → (⟨S3300000x1, .i32⟩ : BufTy).Contents (Elt F)),
    binary main_v27 main_v33 main_v34 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v26 main_v35 (broadcastInDim S3300000x1 ![0] bcast_S3300000_S3300000x1_0 : (⟨S3300000, .f32⟩ : BufTy).Contents (Elt F) → (⟨S3300000x1, .f32⟩ : BufTy).Contents (Elt F)),
    unary main_v35 main_v36 (broadcastInDim S3300000x16 ![0, 1] bcast_S3300000x1_S3300000x16_0_1 : (⟨S3300000x1, .f32⟩ : BufTy).Contents (Elt F) → (⟨S3300000x16, .f32⟩ : BufTy).Contents (Elt F)),
    binary main_v34 main_v36 main_v37 (mulf : (⟨S3300000x16, .f32⟩ : BufTy).Contents (Elt F) → (⟨S3300000x16, .f32⟩ : BufTy).Contents (Elt F) → (⟨S3300000x16, .f32⟩ : BufTy).Contents (Elt F)),
    nullary main_cst_6 (constant S_ .f32 0x00000000#32),
    unary main_cst_6 main_v38 (broadcastInDim S100000x16 ![] bcast_S_S100000x16 : (⟨S_, .f32⟩ : BufTy).Contents (Elt F) → (⟨S100000x16, .f32⟩ : BufTy).Contents (Elt F)),
    unary main_v6 main_v39 (broadcastInDim S3300000x1 ![0] bcast_S3300000_S3300000x1_0 : (⟨S3300000, .i32⟩ : BufTy).Contents (Elt F) → (⟨S3300000x1, .i32⟩ : BufTy).Contents (Elt F)),
    ternary main_v38 main_v39 main_v37 main_v40 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v41 (broadcastInDim S1x16 ![1] bcast_S16_S1x16_1 : (⟨S16, .f32⟩ : BufTy).Contents (Elt F) → (⟨S1x16, .f32⟩ : BufTy).Contents (Elt F)),
    unary main_v41 main_v42 (broadcastInDim S100000x16 ![0, 1] bcast_S1x16_S100000x16_0_1 : (⟨S1x16, .f32⟩ : BufTy).Contents (Elt F) → (⟨S100000x16, .f32⟩ : BufTy).Contents (Elt F)),
    binary main_v40 main_v42 main_v43 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x16, .f32⟩) main_call0_v0) (broadcastInDim S100000x16 ![] bcast_S_S100000x16),
    TRef.binary (TRef.of (T := ⟨S100000x16, .f32⟩) main_v43) (TRef.of (T := ⟨S100000x16, .f32⟩) main_call0_v0) (TRef.of (T := ⟨S100000x16, .f32⟩) main_v44) maximumf,
    binary main_v44 main_arg4 main_v45 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    nullary main_c_7 (constantI S_ 32 0#32),
    unary main_c_7 main_v46 (broadcastInDim S3300000 ![] bcast_S_S3300000 : (⟨S_, .i32⟩ : BufTy).Contents (Elt F) → (⟨S3300000, .i32⟩ : BufTy).Contents (Elt F)),
    binary main_v3 main_v46 main_v47 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v48 (broadcastInDim S3300000 ![] bcast_S_S3300000 : (⟨S_, .i32⟩ : BufTy).Contents (Elt F) → (⟨S3300000, .i32⟩ : BufTy).Contents (Elt F)),
    binary main_v3 main_v48 main_v49 (addi : (⟨S3300000, .i32⟩ : BufTy).Contents (Elt F) → (⟨S3300000, .i32⟩ : BufTy).Contents (Elt F) → (⟨S3300000, .i32⟩ : BufTy).Contents (Elt F)),
    ternary main_v47 main_v49 main_v3 main_v50 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v50 main_v51 (broadcastInDim S3300000x1 ![0] bcast_S3300000_S3300000x1_0 : (⟨S3300000, .i32⟩ : BufTy).Contents (Elt F) → (⟨S3300000x1, .i32⟩ : BufTy).Contents (Elt F)),
    binary main_v45 main_v51 main_v52 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v26 main_v53 (broadcastInDim S3300000x1 ![0] bcast_S3300000_S3300000x1_0 : (⟨S3300000, .f32⟩ : BufTy).Contents (Elt F) → (⟨S3300000x1, .f32⟩ : BufTy).Contents (Elt F)),
    unary main_v53 main_v54 (broadcastInDim S3300000x40 ![0, 1] bcast_S3300000x1_S3300000x40_0_1 : (⟨S3300000x1, .f32⟩ : BufTy).Contents (Elt F) → (⟨S3300000x40, .f32⟩ : BufTy).Contents (Elt F)),
    binary main_v52 main_v54 main_v55 (mulf : (⟨S3300000x40, .f32⟩ : BufTy).Contents (Elt F) → (⟨S3300000x40, .f32⟩ : BufTy).Contents (Elt F) → (⟨S3300000x40, .f32⟩ : BufTy).Contents (Elt F)),
    nullary main_cst_9 (constant S_ .f32 0x00000000#32),
    unary main_cst_9 main_v56 (broadcastInDim S100000x40 ![] bcast_S_S100000x40 : (⟨S_, .f32⟩ : BufTy).Contents (Elt F) → (⟨S100000x40, .f32⟩ : BufTy).Contents (Elt F)),
    unary main_v6 main_v57 (broadcastInDim S3300000x1 ![0] bcast_S3300000_S3300000x1_0 : (⟨S3300000, .i32⟩ : BufTy).Contents (Elt F) → (⟨S3300000x1, .i32⟩ : BufTy).Contents (Elt F)),
    ternary main_v56 main_v57 main_v55 main_v58 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg5 main_v59 (broadcastInDim S1x40 ![1] bcast_S40_S1x40_1 : (⟨S40, .f32⟩ : BufTy).Contents (Elt F) → (⟨S1x40, .f32⟩ : BufTy).Contents (Elt F)),
    unary main_v59 main_v60 (broadcastInDim S100000x40 ![0, 1] bcast_S1x40_S100000x40_0_1 : (⟨S1x40, .f32⟩ : BufTy).Contents (Elt F) → (⟨S100000x40, .f32⟩ : BufTy).Contents (Elt F)),
    binary main_v58 main_v60 main_v61 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call1_cst) (constant S_ .f32 0xFF800000#32),
    TRef.binary (TRef.of (T := ⟨S100000x40, .f32⟩) main_v61) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v61) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v62) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The operations that build the sources, the targets and the edge norm. -/
abbrev opsPre : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    nullary main_c (constantI S_ 32 0#32),
    unary main_c main_v12 (broadcastInDim S3300000 ![] bcast_S_S3300000 : (⟨S_, .i32⟩ : BufTy).Contents (Elt F) → (⟨S3300000, .i32⟩ : BufTy).Contents (Elt F)),
    binary main_v3 main_v12 main_v13 (cmpi .slt : (⟨S3300000, .i32⟩ : BufTy).Contents (Elt F) → (⟨S3300000, .i32⟩ : BufTy).Contents (Elt F) → (⟨S3300000, .i1⟩ : BufTy).Contents (Elt F)),
    nullary main_c_1 (constantI S_ 32 100000#32),
    unary main_c_1 main_v14 (broadcastInDim S3300000 ![] bcast_S_S3300000 : (⟨S_, .i32⟩ : BufTy).Contents (Elt F) → (⟨S3300000, .i32⟩ : BufTy).Contents (Elt F)),
    binary main_v3 main_v14 main_v15 (addi : (⟨S3300000, .i32⟩ : BufTy).Contents (Elt F) → (⟨S3300000, .i32⟩ : BufTy).Contents (Elt F) → (⟨S3300000, .i32⟩ : BufTy).Contents (Elt F)),
    ternary main_v13 main_v15 main_v3 main_v16 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v16 main_v17 (broadcastInDim S3300000x1 ![0] bcast_S3300000_S3300000x1_0 : (⟨S3300000, .i32⟩ : BufTy).Contents (Elt F) → (⟨S3300000x1, .i32⟩ : BufTy).Contents (Elt F)),
    binary main_v11 main_v17 main_v18 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_2 (constantI S_ 32 0#32),
    unary main_c_2 main_v19 (broadcastInDim S3300000 ![] bcast_S_S3300000 : (⟨S_, .i32⟩ : BufTy).Contents (Elt F) → (⟨S3300000, .i32⟩ : BufTy).Contents (Elt F)),
    binary main_v6 main_v19 main_v20 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v21 (broadcastInDim S3300000 ![] bcast_S_S3300000 : (⟨S_, .i32⟩ : BufTy).Contents (Elt F) → (⟨S3300000, .i32⟩ : BufTy).Contents (Elt F)),
    binary main_v6 main_v21 main_v22 (addi : (⟨S3300000, .i32⟩ : BufTy).Contents (Elt F) → (⟨S3300000, .i32⟩ : BufTy).Contents (Elt F) → (⟨S3300000, .i32⟩ : BufTy).Contents (Elt F)),
    ternary main_v20 main_v22 main_v6 main_v23 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v23 main_v24 (broadcastInDim S3300000x1 ![0] bcast_S3300000_S3300000x1_0 : (⟨S3300000, .i32⟩ : BufTy).Contents (Elt F) → (⟨S3300000x1, .i32⟩ : BufTy).Contents (Elt F)),
    binary main_v11 main_v24 main_v25 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v18 main_v25 main_v26 (mulf : (⟨S3300000, .f32⟩ : BufTy).Contents (Elt F) → (⟨S3300000, .f32⟩ : BufTy).Contents (Elt F) → (⟨S3300000, .f32⟩ : BufTy).Contents (Elt F)) ]
/-- The first projection and the first layer's aggregation. -/
abbrev opsMid1 : List (HloOp τ sig (Elt F)) :=
  [ binary main_arg0 main_arg2 main_v27 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_c_4 (constantI S_ 32 0#32),
    unary main_c_4 main_v28 (broadcastInDim S3300000 ![] bcast_S_S3300000 : (⟨S_, .i32⟩ : BufTy).Contents (Elt F) → (⟨S3300000, .i32⟩ : BufTy).Contents (Elt F)),
    binary main_v3 main_v28 main_v29 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v30 (broadcastInDim S3300000 ![] bcast_S_S3300000 : (⟨S_, .i32⟩ : BufTy).Contents (Elt F) → (⟨S3300000, .i32⟩ : BufTy).Contents (Elt F)),
    binary main_v3 main_v30 main_v31 (addi : (⟨S3300000, .i32⟩ : BufTy).Contents (Elt F) → (⟨S3300000, .i32⟩ : BufTy).Contents (Elt F) → (⟨S3300000, .i32⟩ : BufTy).Contents (Elt F)),
    ternary main_v29 main_v31 main_v3 main_v32 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v32 main_v33 (broadcastInDim S3300000x1 ![0] bcast_S3300000_S3300000x1_0 : (⟨S3300000, .i32⟩ : BufTy).Contents (Elt F) → (⟨S3300000x1, .i32⟩ : BufTy).Contents (Elt F)),
    binary main_v27 main_v33 main_v34 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v26 main_v35 (broadcastInDim S3300000x1 ![0] bcast_S3300000_S3300000x1_0 : (⟨S3300000, .f32⟩ : BufTy).Contents (Elt F) → (⟨S3300000x1, .f32⟩ : BufTy).Contents (Elt F)),
    unary main_v35 main_v36 (broadcastInDim S3300000x16 ![0, 1] bcast_S3300000x1_S3300000x16_0_1 : (⟨S3300000x1, .f32⟩ : BufTy).Contents (Elt F) → (⟨S3300000x16, .f32⟩ : BufTy).Contents (Elt F)),
    binary main_v34 main_v36 main_v37 (mulf : (⟨S3300000x16, .f32⟩ : BufTy).Contents (Elt F) → (⟨S3300000x16, .f32⟩ : BufTy).Contents (Elt F) → (⟨S3300000x16, .f32⟩ : BufTy).Contents (Elt F)),
    nullary main_cst_6 (constant S_ .f32 0x00000000#32),
    unary main_cst_6 main_v38 (broadcastInDim S100000x16 ![] bcast_S_S100000x16 : (⟨S_, .f32⟩ : BufTy).Contents (Elt F) → (⟨S100000x16, .f32⟩ : BufTy).Contents (Elt F)),
    unary main_v6 main_v39 (broadcastInDim S3300000x1 ![0] bcast_S3300000_S3300000x1_0 : (⟨S3300000, .i32⟩ : BufTy).Contents (Elt F) → (⟨S3300000x1, .i32⟩ : BufTy).Contents (Elt F)),
    ternary main_v38 main_v39 main_v37 main_v40 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v41 (broadcastInDim S1x16 ![1] bcast_S16_S1x16_1 : (⟨S16, .f32⟩ : BufTy).Contents (Elt F) → (⟨S1x16, .f32⟩ : BufTy).Contents (Elt F)),
    unary main_v41 main_v42 (broadcastInDim S100000x16 ![0, 1] bcast_S1x16_S100000x16_0_1 : (⟨S1x16, .f32⟩ : BufTy).Contents (Elt F) → (⟨S100000x16, .f32⟩ : BufTy).Contents (Elt F)),
    binary main_v40 main_v42 main_v43 (addf : (⟨S100000x16, .f32⟩ : BufTy).Contents (Elt F) → (⟨S100000x16, .f32⟩ : BufTy).Contents (Elt F) → (⟨S100000x16, .f32⟩ : BufTy).Contents (Elt F)) ]
/-- max(·, 0). -/
abbrev opsMid2 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x16, .f32⟩) main_call0_v0) (broadcastInDim S100000x16 ![] bcast_S_S100000x16),
    TRef.binary (TRef.of (T := ⟨S100000x16, .f32⟩) main_v43) (TRef.of (T := ⟨S100000x16, .f32⟩) main_call0_v0) (TRef.of (T := ⟨S100000x16, .f32⟩) main_v44) maximumf ]
/-- The second projection and the second layer's aggregation. -/
abbrev opsTail1 : List (HloOp τ sig (Elt F)) :=
  [ binary main_v44 main_arg4 main_v45 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    nullary main_c_7 (constantI S_ 32 0#32),
    unary main_c_7 main_v46 (broadcastInDim S3300000 ![] bcast_S_S3300000 : (⟨S_, .i32⟩ : BufTy).Contents (Elt F) → (⟨S3300000, .i32⟩ : BufTy).Contents (Elt F)),
    binary main_v3 main_v46 main_v47 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v48 (broadcastInDim S3300000 ![] bcast_S_S3300000 : (⟨S_, .i32⟩ : BufTy).Contents (Elt F) → (⟨S3300000, .i32⟩ : BufTy).Contents (Elt F)),
    binary main_v3 main_v48 main_v49 (addi : (⟨S3300000, .i32⟩ : BufTy).Contents (Elt F) → (⟨S3300000, .i32⟩ : BufTy).Contents (Elt F) → (⟨S3300000, .i32⟩ : BufTy).Contents (Elt F)),
    ternary main_v47 main_v49 main_v3 main_v50 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v50 main_v51 (broadcastInDim S3300000x1 ![0] bcast_S3300000_S3300000x1_0 : (⟨S3300000, .i32⟩ : BufTy).Contents (Elt F) → (⟨S3300000x1, .i32⟩ : BufTy).Contents (Elt F)),
    binary main_v45 main_v51 main_v52 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v26 main_v53 (broadcastInDim S3300000x1 ![0] bcast_S3300000_S3300000x1_0 : (⟨S3300000, .f32⟩ : BufTy).Contents (Elt F) → (⟨S3300000x1, .f32⟩ : BufTy).Contents (Elt F)),
    unary main_v53 main_v54 (broadcastInDim S3300000x40 ![0, 1] bcast_S3300000x1_S3300000x40_0_1 : (⟨S3300000x1, .f32⟩ : BufTy).Contents (Elt F) → (⟨S3300000x40, .f32⟩ : BufTy).Contents (Elt F)),
    binary main_v52 main_v54 main_v55 (mulf : (⟨S3300000x40, .f32⟩ : BufTy).Contents (Elt F) → (⟨S3300000x40, .f32⟩ : BufTy).Contents (Elt F) → (⟨S3300000x40, .f32⟩ : BufTy).Contents (Elt F)),
    nullary main_cst_9 (constant S_ .f32 0x00000000#32),
    unary main_cst_9 main_v56 (broadcastInDim S100000x40 ![] bcast_S_S100000x40 : (⟨S_, .f32⟩ : BufTy).Contents (Elt F) → (⟨S100000x40, .f32⟩ : BufTy).Contents (Elt F)),
    unary main_v6 main_v57 (broadcastInDim S3300000x1 ![0] bcast_S3300000_S3300000x1_0 : (⟨S3300000, .i32⟩ : BufTy).Contents (Elt F) → (⟨S3300000x1, .i32⟩ : BufTy).Contents (Elt F)),
    ternary main_v56 main_v57 main_v55 main_v58 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg5 main_v59 (broadcastInDim S1x40 ![1] bcast_S40_S1x40_1 : (⟨S40, .f32⟩ : BufTy).Contents (Elt F) → (⟨S1x40, .f32⟩ : BufTy).Contents (Elt F)),
    unary main_v59 main_v60 (broadcastInDim S100000x40 ![0, 1] bcast_S1x40_S100000x40_0_1 : (⟨S1x40, .f32⟩ : BufTy).Contents (Elt F) → (⟨S100000x40, .f32⟩ : BufTy).Contents (Elt F)),
    binary main_v58 main_v60 main_v61 (addf : (⟨S100000x40, .f32⟩ : BufTy).Contents (Elt F) → (⟨S100000x40, .f32⟩ : BufTy).Contents (Elt F) → (⟨S100000x40, .f32⟩ : BufTy).Contents (Elt F)) ]
/-- log-softmax. -/
abbrev opsTail2 : List (HloOp τ sig (Elt F)) :=
  [ TRef.nullary (TRef.of (T := ⟨S_, .f32⟩) main_call1_cst) (constant S_ .f32 0xFF800000#32),
    TRef.binary (TRef.of (T := ⟨S100000x40, .f32⟩) main_v61) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v61) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v62) subf ]

set_option maxRecDepth 8192 in
theorem ops_split : (ops : List (HloOp τ sig (Elt F))) = opsPre ++ (opsMid1 ++ (opsMid2 ++ (opsTail1 ++ opsTail2))) := rfl

/-- The fold over the whole line is the fold over the five stretches, one after the other. -/
theorem after_split (V : Valuation τ sig (Elt F)) :
    after ops V = after opsTail2 (after opsTail1 (after opsMid2 (after opsMid1 (after opsPre V)))) := by
  rw [ops_split, StableHlo.after_append, StableHlo.after_append, StableHlo.after_append, StableHlo.after_append]

/-- Every weakly fair execution of the reference terminates, nothing faulting, with every buffer at the fold of the
    operations over the launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.Line

end
-- ==== Proof.RefStages.lean ====
/-
  The reference's five stretches of host operations read back, each from ANY buffer contents `Vb`.

  The same lemmas as for the kernel's stretches, with one difference: here each projection is a host operation, the first
  line of the stretch that consumes it, so the second stretch is read as the hidden features of the `dot_general` of the
  two buffers it multiplies, and the fourth and fifth as the log-softmax of the logits of the second `dot_general`.
-/
import proofs.«138035_j67654324846930_1_alg».proof.Proof.Gen.KernelIdeal
import proofs.«138035_j67654324846930_1_alg».proof.Proof.RefLine
import proofs.«138035_j67654324846930_1_alg».proof.Proof.Spec
import proofs.«138035_j67654324846930_1_alg».proof.Proof.LibTypedRefs

set_option maxRecDepth 16384

noncomputable section

namespace Cert.ReferenceIdeal.Stages

open Idealize.ShloMosaic Idealize.ShloMosaic.TcCoe Idealize.SL.Sem Idealize.ShloMosaic.StableHlo
open Cert.ReferenceIdeal Cert.ReferenceIdeal.Gen Cert.ReferenceIdeal.Line

variable {F : FTy → Type} [FloatOps F] (Vb : Valuation τ sig (Elt F))

/-! ## The two typed references of log-softmax whose transports have no partner: the identity at the literal reference -/

/-- The logits' buffer read at its tensor type: the buffer's type is that type. -/
theorem ofBuf_logits (v : (⟨S100000x40, .f32⟩ : BufTy).Contents (Elt F)) (h1 h2 h3) :
    (TRef.of (sig := sig) (T := ⟨S100000x40, .f32⟩) main_v61 h1 h2 h3).ofBuf v = v := rfl

/-- The result written at its buffer's type: the buffer's type is the tensor's. -/
theorem toBuf_result (v : (⟨S100000x40, .f32⟩ : BufTy).Contents (Elt F)) (h1 h2 h3) :
    (TRef.of (sig := sig) (T := ⟨S100000x40, .f32⟩) main_v62 h1 h2 h3).toBuf v = v := rfl

/-! ## Before the first projection -/

theorem pre_sources : after (opsPre (F := F)) Vb (Proc.devRef (τ := τ) .tc main_v3) = Cert.KernelIdeal.Spec.sources (Vb (Proc.devRef (τ := τ) .tc main_arg1)) := by
  dsimp only [opsPre]; after_results_simp; rfl
theorem pre_targets : after (opsPre (F := F)) Vb (Proc.devRef (τ := τ) .tc main_v6) = Cert.KernelIdeal.Spec.targets (Vb (Proc.devRef (τ := τ) .tc main_arg1)) := by
  dsimp only [opsPre]; after_results_simp; rfl
theorem pre_norm : after (opsPre (F := F)) Vb (Proc.devRef (τ := τ) .tc main_v26)
    = Cert.KernelIdeal.Spec.edgeNorm (Cert.KernelIdeal.Spec.sources (Vb (Proc.devRef (τ := τ) .tc main_arg1))) (Cert.KernelIdeal.Spec.targets (Vb (Proc.devRef (τ := τ) .tc main_arg1))) := by
  dsimp only [opsPre]; after_results_simp; rfl
theorem pre_arg0 : after (opsPre (F := F)) Vb (Proc.devRef (τ := τ) .tc main_arg0) = Vb (Proc.devRef (τ := τ) .tc main_arg0) := by dsimp only [opsPre]; after_results_simp
theorem pre_arg2 : after (opsPre (F := F)) Vb (Proc.devRef (τ := τ) .tc main_arg2) = Vb (Proc.devRef (τ := τ) .tc main_arg2) := by dsimp only [opsPre]; after_results_simp
theorem pre_arg3 : after (opsPre (F := F)) Vb (Proc.devRef (τ := τ) .tc main_arg3) = Vb (Proc.devRef (τ := τ) .tc main_arg3) := by dsimp only [opsPre]; after_results_simp
theorem pre_arg4 : after (opsPre (F := F)) Vb (Proc.devRef (τ := τ) .tc main_arg4) = Vb (Proc.devRef (τ := τ) .tc main_arg4) := by dsimp only [opsPre]; after_results_simp
theorem pre_arg5 : after (opsPre (F := F)) Vb (Proc.devRef (τ := τ) .tc main_arg5) = Vb (Proc.devRef (τ := τ) .tc main_arg5) := by dsimp only [opsPre]; after_results_simp

/-! ## The first projection and the first layer -/

theorem mid_hidden : after (opsMid2 (F := F)) (after opsMid1 Vb) (Proc.devRef (τ := τ) .tc main_v44)
    = Cert.KernelIdeal.Spec.hidden (Host.dotGeneral dot_S100000x512_S512x16_S100000x16_1_0_0_1_n_n none (Vb (Proc.devRef (τ := τ) .tc main_arg0)) (Vb (Proc.devRef (τ := τ) .tc main_arg2)))
        (Vb (Proc.devRef (τ := τ) .tc main_v3)) (Vb (Proc.devRef (τ := τ) .tc main_v6)) (Vb (Proc.devRef (τ := τ) .tc main_v26)) (Vb (Proc.devRef (τ := τ) .tc main_arg3)) := by
  dsimp only [opsMid1, opsMid2]; after_results_simp; rfl
theorem mid_v3 : after (opsMid2 (F := F)) (after opsMid1 Vb) (Proc.devRef (τ := τ) .tc main_v3) = Vb (Proc.devRef (τ := τ) .tc main_v3) := by dsimp only [opsMid1, opsMid2]; after_results_simp
theorem mid_v6 : after (opsMid2 (F := F)) (after opsMid1 Vb) (Proc.devRef (τ := τ) .tc main_v6) = Vb (Proc.devRef (τ := τ) .tc main_v6) := by dsimp only [opsMid1, opsMid2]; after_results_simp
theorem mid_v26 : after (opsMid2 (F := F)) (after opsMid1 Vb) (Proc.devRef (τ := τ) .tc main_v26) = Vb (Proc.devRef (τ := τ) .tc main_v26) := by dsimp only [opsMid1, opsMid2]; after_results_simp
theorem mid_arg4 : after (opsMid2 (F := F)) (after opsMid1 Vb) (Proc.devRef (τ := τ) .tc main_arg4) = Vb (Proc.devRef (τ := τ) .tc main_arg4) := by dsimp only [opsMid1, opsMid2]; after_results_simp
theorem mid_arg5 : after (opsMid2 (F := F)) (after opsMid1 Vb) (Proc.devRef (τ := τ) .tc main_arg5) = Vb (Proc.devRef (τ := τ) .tc main_arg5) := by dsimp only [opsMid1, opsMid2]; after_results_simp

/-! ## The second projection, the second layer and log-softmax -/

theorem tail_result : after (opsTail2 (F := F)) (after opsTail1 Vb) (Proc.devRef (τ := τ) .tc main_v62)
    = Cert.KernelIdeal.Spec.logSoftmax (Cert.KernelIdeal.Spec.logits (Host.dotGeneral dot_S100000x16_S16x40_S100000x40_1_0_0_1_n_n none (Vb (Proc.devRef (τ := τ) .tc main_v44)) (Vb (Proc.devRef (τ := τ) .tc main_arg4)))
        (Vb (Proc.devRef (τ := τ) .tc main_v3)) (Vb (Proc.devRef (τ := τ) .tc main_v6)) (Vb (Proc.devRef (τ := τ) .tc main_v26)) (Vb (Proc.devRef (τ := τ) .tc main_arg5))) := by
  dsimp only [opsTail1, opsTail2]; after_results_simp
  simp only [Cert.Lib.TypedRefs.ofBuf_toBuf]
  refine (toBuf_result _ _ _ _).trans ?_
  simp only [ofBuf_logits]
  rfl

end Cert.ReferenceIdeal.Stages

end
-- ==== Proof.RefValue.lean ====
/-
  The reference's result as the same function of its arguments.

  Reading the line one stretch at a time from the launch contents: the first stretch builds the sources, the targets and
  the edge norm and leaves the arguments alone; the second and third leave the hidden features of the product x · W1; the
  last two leave the log-softmax of the logits of the product of the hidden features with W2.  The two `dot_general`
  lines are plain matrix products (contract the left operand's columns against the right operand's rows), so the result is
  `Spec.result` of the six arguments — the function the kernel's result is.
-/
import proofs.«138035_j67654324846930_1_alg».proof.Proof.RefStages

set_option maxRecDepth 16384
set_option maxHeartbeats 2000000

noncomputable section

namespace Cert.ReferenceIdeal.Result

open Idealize.ShloMosaic Idealize.ShloMosaic.TcCoe Idealize.SL.Sem Idealize.ShloMosaic.StableHlo
open Cert.ReferenceIdeal Cert.ReferenceIdeal.Gen Cert.ReferenceIdeal.Line

variable (m : (ℓ : Loc nD τ sig) → Buf (Elt Ideal) ℓ) (ρ : Dev nD → PrngReg)

/-- The launch contents at an argument's buffer are the launch memory there. -/
theorem launch0 (c : Dev nD) : launchContents m c (Proc.devRef (τ := τ) .tc main_arg0) = (m ((c.tc : Thread nD τ).loc main_arg0)) := rfl
theorem launch1 (c : Dev nD) : launchContents m c (Proc.devRef (τ := τ) .tc main_arg1) = (m ((c.tc : Thread nD τ).loc main_arg1)) := rfl
theorem launch2 (c : Dev nD) : launchContents m c (Proc.devRef (τ := τ) .tc main_arg2) = (m ((c.tc : Thread nD τ).loc main_arg2)) := rfl
theorem launch3 (c : Dev nD) : launchContents m c (Proc.devRef (τ := τ) .tc main_arg3) = (m ((c.tc : Thread nD τ).loc main_arg3)) := rfl
theorem launch4 (c : Dev nD) : launchContents m c (Proc.devRef (τ := τ) .tc main_arg4) = (m ((c.tc : Thread nD τ).loc main_arg4)) := rfl
theorem launch5 (c : Dev nD) : launchContents m c (Proc.devRef (τ := τ) .tc main_arg5) = (m ((c.tc : Thread nD τ).loc main_arg5)) := rfl

/-- The reference's first `dot_general` is the plain product of a 100000×512 by a 512×16 matrix. -/
theorem proj1_eq (X : FVec Ideal ⟨2, ![100000, 512]⟩ .f32) (W : FVec Ideal ⟨2, ![512, 16]⟩ .f32) :
    Host.dotGeneral (F := Ideal) dot_S100000x512_S512x16_S100000x16_1_0_0_1_n_n none X W = Cert.KernelIdeal.Spec.projection1 X W := rfl
/-- The reference's second `dot_general` is the plain product of a 100000×16 by a 16×40 matrix. -/
theorem proj2_eq (X : FVec Ideal ⟨2, ![100000, 16]⟩ .f32) (W : FVec Ideal ⟨2, ![16, 40]⟩ .f32) :
    Host.dotGeneral (F := Ideal) dot_S100000x16_S16x40_S100000x40_1_0_0_1_n_n none X W = Cert.KernelIdeal.Spec.projection2 X W := rfl

/-- The fold over the whole line, at the result buffer. -/
theorem value (c : Dev nD) : after (ops (F := Ideal)) (launchContents m c) (Proc.devRef (τ := τ) .tc main_v62)
    = Cert.KernelIdeal.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  -- after the first stretch
  have a0 : (after opsPre (launchContents m c)) (Proc.devRef (τ := τ) .tc main_arg0) = (m ((c.tc : Thread nD τ).loc main_arg0)) := (Stages.pre_arg0 (launchContents m c)).trans (launch0 m c)
  have a2 : (after opsPre (launchContents m c)) (Proc.devRef (τ := τ) .tc main_arg2) = (m ((c.tc : Thread nD τ).loc main_arg2)) := (Stages.pre_arg2 (launchContents m c)).trans (launch2 m c)
  have a3 : (after opsPre (launchContents m c)) (Proc.devRef (τ := τ) .tc main_arg3) = (m ((c.tc : Thread nD τ).loc main_arg3)) := (Stages.pre_arg3 (launchContents m c)).trans (launch3 m c)
  have a4 : (after opsPre (launchContents m c)) (Proc.devRef (τ := τ) .tc main_arg4) = (m ((c.tc : Thread nD τ).loc main_arg4)) := (Stages.pre_arg4 (launchContents m c)).trans (launch4 m c)
  have a5 : (after opsPre (launchContents m c)) (Proc.devRef (τ := τ) .tc main_arg5) = (m ((c.tc : Thread nD τ).loc main_arg5)) := (Stages.pre_arg5 (launchContents m c)).trans (launch5 m c)
  have s1 : (after opsPre (launchContents m c)) (Proc.devRef (τ := τ) .tc main_v3) = (Cert.KernelIdeal.Spec.sources (m ((c.tc : Thread nD τ).loc main_arg1))) := by rw [Stages.pre_sources (launchContents m c), launch1 m c]
  have t1 : (after opsPre (launchContents m c)) (Proc.devRef (τ := τ) .tc main_v6) = (Cert.KernelIdeal.Spec.targets (m ((c.tc : Thread nD τ).loc main_arg1))) := by rw [Stages.pre_targets (launchContents m c), launch1 m c]
  have n1 : (after opsPre (launchContents m c)) (Proc.devRef (τ := τ) .tc main_v26) = (Cert.KernelIdeal.Spec.edgeNorm (Cert.KernelIdeal.Spec.sources (m ((c.tc : Thread nD τ).loc main_arg1))) (Cert.KernelIdeal.Spec.targets (m ((c.tc : Thread nD τ).loc main_arg1)))) := by rw [Stages.pre_norm (launchContents m c), launch1 m c]
  -- after the first projection and the first layer
  have h2 : (after opsMid2 (after opsMid1 (after opsPre (launchContents m c)))) (Proc.devRef (τ := τ) .tc main_v44) = (Cert.KernelIdeal.Spec.hidden (Cert.KernelIdeal.Spec.projection1 (m ((c.tc : Thread nD τ).loc main_arg0)) (m ((c.tc : Thread nD τ).loc main_arg2))) (Cert.KernelIdeal.Spec.sources (m ((c.tc : Thread nD τ).loc main_arg1))) (Cert.KernelIdeal.Spec.targets (m ((c.tc : Thread nD τ).loc main_arg1))) (Cert.KernelIdeal.Spec.edgeNorm (Cert.KernelIdeal.Spec.sources (m ((c.tc : Thread nD τ).loc main_arg1))) (Cert.KernelIdeal.Spec.targets (m ((c.tc : Thread nD τ).loc main_arg1)))) (m ((c.tc : Thread nD τ).loc main_arg3))) := by
    rw [Stages.mid_hidden (after opsPre (launchContents m c)), a0, a2, a3, s1, t1, n1, proj1_eq]
  have s2 : (after opsMid2 (after opsMid1 (after opsPre (launchContents m c)))) (Proc.devRef (τ := τ) .tc main_v3) = (Cert.KernelIdeal.Spec.sources (m ((c.tc : Thread nD τ).loc main_arg1))) := (Stages.mid_v3 (after opsPre (launchContents m c))).trans s1
  have t2 : (after opsMid2 (after opsMid1 (after opsPre (launchContents m c)))) (Proc.devRef (τ := τ) .tc main_v6) = (Cert.KernelIdeal.Spec.targets (m ((c.tc : Thread nD τ).loc main_arg1))) := (Stages.mid_v6 (after opsPre (launchContents m c))).trans t1
  have n2 : (after opsMid2 (after opsMid1 (after opsPre (launchContents m c)))) (Proc.devRef (τ := τ) .tc main_v26) = (Cert.KernelIdeal.Spec.edgeNorm (Cert.KernelIdeal.Spec.sources (m ((c.tc : Thread nD τ).loc main_arg1))) (Cert.KernelIdeal.Spec.targets (m ((c.tc : Thread nD τ).loc main_arg1)))) := (Stages.mid_v26 (after opsPre (launchContents m c))).trans n1
  have b4 : (after opsMid2 (after opsMid1 (after opsPre (launchContents m c)))) (Proc.devRef (τ := τ) .tc main_arg4) = (m ((c.tc : Thread nD τ).loc main_arg4)) := (Stages.mid_arg4 (after opsPre (launchContents m c))).trans a4
  have b5 : (after opsMid2 (after opsMid1 (after opsPre (launchContents m c)))) (Proc.devRef (τ := τ) .tc main_arg5) = (m ((c.tc : Thread nD τ).loc main_arg5)) := (Stages.mid_arg5 (after opsPre (launchContents m c))).trans a5
  -- the second projection, the second layer and log-softmax
  rw [after_split, Stages.tail_result (after opsMid2 (after opsMid1 (after opsPre (launchContents m c)))), h2, s2, t2, n2, b4, b5, proj2_eq]
  rfl

/-- No operation of the line writes an argument's buffer. -/
theorem kept0 (c : Dev nD) : after (ops (F := Ideal)) (launchContents m c) (Proc.devRef (τ := τ) .tc main_arg0) = (m ((c.tc : Thread nD τ).loc main_arg0)) :=
  (after_of_forall_not_mem (b := (Proc.devRef (τ := τ) .tc main_arg0)) _ _ (List.forall_iff_forall_mem.mp (by
        simp only [ops, List.Forall, nullary_writes, unary_writes, binary_writes, ternary_writes, quaternary_writes, reshape_writes, binaryIndexed_writes, Finset.mem_singleton]
        repeat' apply And.intro
        all_goals exact devRef_ne_of_ne (by decide)))).trans (launch0 m c)
theorem kept1 (c : Dev nD) : after (ops (F := Ideal)) (launchContents m c) (Proc.devRef (τ := τ) .tc main_arg1) = (m ((c.tc : Thread nD τ).loc main_arg1)) :=
  (after_of_forall_not_mem (b := (Proc.devRef (τ := τ) .tc main_arg1)) _ _ (List.forall_iff_forall_mem.mp (by
        simp only [ops, List.Forall, nullary_writes, unary_writes, binary_writes, ternary_writes, quaternary_writes, reshape_writes, binaryIndexed_writes, Finset.mem_singleton]
        repeat' apply And.intro
        all_goals exact devRef_ne_of_ne (by decide)))).trans (launch1 m c)
theorem kept2 (c : Dev nD) : after (ops (F := Ideal)) (launchContents m c) (Proc.devRef (τ := τ) .tc main_arg2) = (m ((c.tc : Thread nD τ).loc main_arg2)) :=
  (after_of_forall_not_mem (b := (Proc.devRef (τ := τ) .tc main_arg2)) _ _ (List.forall_iff_forall_mem.mp (by
        simp only [ops, List.Forall, nullary_writes, unary_writes, binary_writes, ternary_writes, quaternary_writes, reshape_writes, binaryIndexed_writes, Finset.mem_singleton]
        repeat' apply And.intro
        all_goals exact devRef_ne_of_ne (by decide)))).trans (launch2 m c)
theorem kept3 (c : Dev nD) : after (ops (F := Ideal)) (launchContents m c) (Proc.devRef (τ := τ) .tc main_arg3) = (m ((c.tc : Thread nD τ).loc main_arg3)) :=
  (after_of_forall_not_mem (b := (Proc.devRef (τ := τ) .tc main_arg3)) _ _ (List.forall_iff_forall_mem.mp (by
        simp only [ops, List.Forall, nullary_writes, unary_writes, binary_writes, ternary_writes, quaternary_writes, reshape_writes, binaryIndexed_writes, Finset.mem_singleton]
        repeat' apply And.intro
        all_goals exact devRef_ne_of_ne (by decide)))).trans (launch3 m c)
theorem kept4 (c : Dev nD) : after (ops (F := Ideal)) (launchContents m c) (Proc.devRef (τ := τ) .tc main_arg4) = (m ((c.tc : Thread nD τ).loc main_arg4)) :=
  (after_of_forall_not_mem (b := (Proc.devRef (τ := τ) .tc main_arg4)) _ _ (List.forall_iff_forall_mem.mp (by
        simp only [ops, List.Forall, nullary_writes, unary_writes, binary_writes, ternary_writes, quaternary_writes, reshape_writes, binaryIndexed_writes, Finset.mem_singleton]
        repeat' apply And.intro
        all_goals exact devRef_ne_of_ne (by decide)))).trans (launch4 m c)
theorem kept5 (c : Dev nD) : after (ops (F := Ideal)) (launchContents m c) (Proc.devRef (τ := τ) .tc main_arg5) = (m ((c.tc : Thread nD τ).loc main_arg5)) :=
  (after_of_forall_not_mem (b := (Proc.devRef (τ := τ) .tc main_arg5)) _ _ (List.forall_iff_forall_mem.mp (by
        simp only [ops, List.Forall, nullary_writes, unary_writes, binary_writes, ternary_writes, quaternary_writes, reshape_writes, binaryIndexed_writes, Finset.mem_singleton]
        repeat' apply And.intro
        all_goals exact devRef_ne_of_ne (by decide)))).trans (launch5 m c)

/-- Every weakly fair execution of the reference terminates, nothing faulting, with the result at `Spec.result` of the
    arguments and the arguments as launched. -/
theorem run : θ_run defs (onTc (τ := τ) (main (F := Ideal))) ⟨m, fun _ => 0, ρ⟩ (fun r => ∀ c : Dev nD,
      r.2.mem ((c.tc : Thread nD τ).loc main_v62) = Cert.KernelIdeal.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c main_v62).trans (value m c),
      (h c main_arg0).trans (kept0 m c), (h c main_arg1).trans (kept1 m c), (h c main_arg2).trans (kept2 m c),
      (h c main_arg3).trans (kept3 m c), (h c main_arg4).trans (kept4 m c), (h c main_arg5).trans (kept5 m c)⟩)
    (run_line m ρ)

end Cert.ReferenceIdeal.Result

end
-- ==== Proof.lean ====
/-
  A two-layer graph convolution with self loops, D^{-1/2} (A + I) D^{-1/2} (h W) + b, followed by log-softmax: the kernel
  program against its plain reference.

  The two programs apply the same host operations — build the sources and targets (the edge list followed by the self
  loops), the degrees and the edge norm; per layer gather the projected rows at the sources, scale by the edge norm, add
  them up at the targets, add the bias; max(·, 0) after the first layer, log-softmax after the second — and differ only in
  how each projection h · W is computed: the kernel in 50 row tiles of 2000 rows (operands rounded to bf16, accumulated
  from zero), the reference as one `dot_general`.  At the ideal values the rounding is the identity and a tile's entry
  (p, q) is the sum over k of X (t·2000 + p, k) · W (k, q): the same sum, term for term, as the whole product's entry at
  row t·2000 + p.  The tiles cover all 100000 rows, so each output array holds the whole product; the host operations
  around the products are then the same function of the same values on both sides.  No algebraic law beyond that equality
  of sums is needed, and none that needs finiteness: the precondition is never opened.

  The frames of the two kernel programs are the generated ones.  The reference's run, and with it its frame, is read off
  its straight line of host operations one stretch at a time.  The ideal pass rewrote nothing, so there is nothing to
  preserve.
-/
import proofs.«138035_j67654324846930_1_alg».proof.Defs
import proofs.«138035_j67654324846930_1_alg».proof.Proof.Gen.Kernel
import proofs.«138035_j67654324846930_1_alg».proof.Proof.Gen.Kernel.Frame
import proofs.«138035_j67654324846930_1_alg».proof.Proof.Gen.KernelIdeal
import proofs.«138035_j67654324846930_1_alg».proof.Proof.Gen.KernelIdeal.Frame
import proofs.«138035_j67654324846930_1_alg».proof.Proof.Gen.ReferenceIdeal
import proofs.«138035_j67654324846930_1_alg».proof.Proof.Gen.Pre_finite_inputs
import proofs.«138035_j67654324846930_1_alg».proof.Proof.KernelValue
import proofs.«138035_j67654324846930_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Result.run m ρ)

/-- The ideal pass rewrote no operation. -/
theorem preserves : Cert.preserves_Kernel_KernelIdeal := trivial

/-- Both runs end with the result at the same function of arguments that agree. -/
theorem algebraic : Cert.algebraic_KernelIdeal_ReferenceIdeal := by
  intro m ρ m' ρ' _ hagree
  refine ⟨fun c => Cert.KernelIdeal.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Result.run m ρ, ?_⟩
  refine (θ_run Cert.ReferenceIdeal.defs _ _).mono (fun _ h c => ⟨(h c).1.trans ?_, (h c).2⟩)
    (Cert.ReferenceIdeal.Result.run m' ρ')
  obtain ⟨e0, e1, e2, e3, e4, e5⟩ := hagree c
  rw [e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
